-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x128 : Shape := ⟨2, ![262144, 128]⟩
abbrev S1048576 : Shape := ⟨1, ![1048576]⟩
abbrev S262144 : Shape := ⟨1, ![262144]⟩
abbrev S256x128 : Shape := ⟨2, ![256, 128]⟩
abbrev S256 : Shape := ⟨1, ![256]⟩
abbrev S64x256 : Shape := ⟨2, ![64, 256]⟩
abbrev S64 : Shape := ⟨1, ![64]⟩
abbrev S_ : Shape := ⟨0, ![]⟩

class Facts : Prop where
  bcast_S_S262144x128 : S_.BroadcastsInDim S262144x128 (![] : Fin 0 → Fin S262144x128.rank)
  reducesTo_S262144x128_S_d0_1 : S262144x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S64x256 : S_.BroadcastsInDim S64x256 (![] : Fin 0 → Fin S64x256.rank)
  reducesTo_S64x256_S_d0_1 : S64x256.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg8 : FVec F S64x256 .f32) (main_arg9 : FVec F S64x256 .f32) (main_arg10 : FVec F S64 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S64x256 .f32 := Host.absf main_arg8
  let main_cst_6 : FVec F S_ .f32 := constant S_ .f32 0x7F800000#32
  let main_v20 : FVec F S64x256 .f32 := broadcastInDim S64x256 ![] bcast_S_S64x256 main_cst_6
  let main_v21 : IVec S64x256 1 := cmpf .olt main_v19 main_v20
  let main_c_7 : IVec S_ 1 := constantI S_ 1 1#1
  let main_v22 : IVec S_ 1 := (fun x v => Host.reduce IntOp.andi x v reducesTo_S64x256_S_d0_1 h_S_) main_v21 main_c_7
  let main_v23 : IVec S_ 1 := andi main_v18 main_v22
  let main_v24 : FVec F S64x256 .f32 := Host.absf main_arg9
  let main_cst_8 : FVec F S_ .f32 := constant S_ .f32 0x7F800000#32
  let main_v25 : FVec F S64x256 .f32 := broadcastInDim S64x256 ![] bcast_S_S64x256 main_cst_8
  let main_v26 : IVec S64x256 1 := cmpf .olt main_v24 main_v25
  let main_c_9 : IVec S_ 1 := constantI S_ 1 1#1
  let main_v27 : IVec S_ 1 := (fun x v => Host.reduce IntOp.andi x v reducesTo_S64x256_S_d0_1 h_S_) main_v26 main_c_9
  let main_v28 : IVec S_ 1 := andi main_v23 main_v27
  let main_v29 : FVec F S64 .f32 := Host.absf main_arg10
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S262144x128 .f32) (main_arg1 : IVec S1048576 32) (main_arg2 : IVec S1048576 32) (main_arg3 : IVec S262144 32) (main_arg4 : IVec S262144 32) (main_arg5 : FVec F S256x128 .f32) (main_arg6 : FVec F S256x128 .f32) (main_arg7 : FVec F S256 .f32) (main_arg8 : FVec F S64x256 .f32) (main_arg9 : FVec F S64x256 .f32) (main_arg10 : FVec F S64 .f32) : IVec S_ 1 :=
  let main_v0 : FVec F S262144x128 .f32 := Host.absf main_arg0
  let main_cst : FVec F S_ .f32 := constant S_ .f32 0x7F800000#32
  let main_v1 : FVec F S262144x128 .f32 := broadcastInDim S262144x128 ![] bcast_S_S262144x128 main_cst
  let main_v2 : IVec S262144x128 1 := cmpf .olt main_v0 main_v1
  let main_c : IVec S_ 1 := constantI S_ 1 1#1
  let main_v3 : IVec S_ 1 := (fun x v => Host.reduce IntOp.andi x v reducesTo_S262144x128_S_d0_1 h_S_) main_v2 main_c
  let main_v4 : FVec F S256x128 .f32 := Host.absf main_arg5
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256x128 .f32 := Host.absf main_arg6
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S256 .f32 := Host.absf main_arg7
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg8 main_arg9 main_arg10 main_v13 main_v16
-- ==== Kernel.lean ====
abbrev S262144x128 : Shape := ⟨2, ![262144, 128]⟩
abbrev S1048576 : Shape := ⟨1, ![1048576]⟩
abbrev S262144 : Shape := ⟨1, ![262144]⟩
abbrev S256x128 : Shape := ⟨2, ![256, 128]⟩
abbrev S256 : Shape := ⟨1, ![256]⟩
abbrev S64x256 : Shape := ⟨2, ![64, 256]⟩
abbrev S64 : Shape := ⟨1, ![64]⟩
abbrev S_ : Shape := ⟨0, ![]⟩
abbrev S1048576x1 : Shape := ⟨2, ![1048576, 1]⟩
abbrev S1048576x128 : Shape := ⟨2, ![1048576, 128]⟩
abbrev S65536x128 : Shape := ⟨2, ![65536, 128]⟩
abbrev S65536 : Shape := ⟨1, ![65536]⟩
abbrev S65536x1 : Shape := ⟨2, ![65536, 1]⟩
abbrev S65536x256 : Shape := ⟨2, ![65536, 256]⟩
abbrev S128x256 : Shape := ⟨2, ![128, 256]⟩
abbrev S256x256 : Shape := ⟨2, ![256, 256]⟩
abbrev S1x256 : Shape := ⟨2, ![1, 256]⟩
abbrev S4096x256 : Shape := ⟨2, ![4096, 256]⟩
abbrev S262144x1 : Shape := ⟨2, ![262144, 1]⟩
abbrev S262144x256 : Shape := ⟨2, ![262144, 256]⟩
abbrev S16384x256 : Shape := ⟨2, ![16384, 256]⟩
abbrev S16384 : Shape := ⟨1, ![16384]⟩
abbrev S16384x1 : Shape := ⟨2, ![16384, 1]⟩
abbrev S16384x512 : Shape := ⟨2, ![16384, 512]⟩
abbrev S256x64 : Shape := ⟨2, ![256, 64]⟩
abbrev S512x64 : Shape := ⟨2, ![512, 64]⟩
abbrev S1x64 : Shape := ⟨2, ![1, 64]⟩
abbrev S16384x64 : Shape := ⟨2, ![16384, 64]⟩
abbrev S4096x512 : Shape := ⟨2, ![4096, 512]⟩
abbrev S4096x64 : Shape := ⟨2, ![4096, 64]⟩
abbrev S4096 : Shape := ⟨1, ![4096]⟩
abbrev S4096x1 : Shape := ⟨2, ![4096, 1]⟩

abbrev nBuf : Space → Nat
  | .hbm => 75
  | .vmem => 12
  | .smem => 0
  | _ => 0

abbrev bufTy : (tb : Table) → Fin (tcTables nBuf tb) → BufTy
  | .hbm, ⟨0, _⟩ => ⟨S262144x128, .f32⟩
  | .hbm, ⟨1, _⟩ => ⟨S1048576, .i32⟩
  | .hbm, ⟨2, _⟩ => ⟨S1048576, .i32⟩
  | .hbm, ⟨3, _⟩ => ⟨S262144, .i32⟩
  | .hbm, ⟨4, _⟩ => ⟨S262144, .i32⟩
  | .hbm, ⟨5, _⟩ => ⟨S256x128, .f32⟩
  | .hbm, ⟨6, _⟩ => ⟨S256x128, .f32⟩
  | .hbm, ⟨7, _⟩ => ⟨S256, .f32⟩
  | .hbm, ⟨8, _⟩ => ⟨S64x256, .f32⟩
  | .hbm, ⟨9, _⟩ => ⟨S64x256, .f32⟩
  | .hbm, ⟨10, _⟩ => ⟨S64, .f32⟩
  | .hbm, ⟨11, _⟩ => ⟨S_, .i32⟩
  | .hbm, ⟨12, _⟩ => ⟨S1048576, .i32⟩
  | .hbm, ⟨13, _⟩ => ⟨S1048576, .i1⟩
  | .hbm, ⟨14, _⟩ => ⟨S_, .i32⟩
  | .hbm, ⟨15, _⟩ => ⟨S1048576, .i32⟩
  | .hbm, ⟨16, _⟩ => ⟨S1048576, .i32⟩
  | .hbm, ⟨17, _⟩ => ⟨S1048576, .i32⟩
  | .hbm, ⟨18, _⟩ => ⟨S1048576x1, .i32⟩
  | .hbm, ⟨19, _⟩ => ⟨S1048576x128, .f32⟩
  | .hbm, ⟨20, _⟩ => ⟨S_, .f32⟩
  | .hbm, ⟨21, _⟩ => ⟨S65536x128, .f32⟩
  | .hbm, ⟨22, _⟩ => ⟨S1048576x1, .i32⟩
  | .hbm, ⟨23, _⟩ => ⟨S65536x128, .f32⟩
  | .hbm, ⟨24, _⟩ => ⟨S_, .f32⟩
  | .hbm, ⟨25, _⟩ => ⟨S1048576, .f32⟩
  | .hbm, ⟨26, _⟩ => ⟨S_, .f32⟩
  | .hbm, ⟨27, _⟩ => ⟨S65536, .f32⟩
  | .hbm, ⟨28, _⟩ => ⟨S1048576x1, .i32⟩
  | .hbm, ⟨29, _⟩ => ⟨S65536, .f32⟩
  | .hbm, ⟨30, _⟩ => ⟨S_, .f32⟩
  | .hbm, ⟨31, _⟩ => ⟨S65536, .f32⟩
  | .hbm, ⟨32, _⟩ => ⟨S65536, .f32⟩
  | .hbm, ⟨33, _⟩ => ⟨S65536x1, .f32⟩
  | .hbm, ⟨34, _⟩ => ⟨S65536x128, .f32⟩
  | .hbm, ⟨35, _⟩ => ⟨S65536x128, .f32⟩
  | .hbm, ⟨36, _⟩ => ⟨S65536x128, .f32⟩
  | .hbm, ⟨37, _⟩ => ⟨S65536x256, .f32⟩
  | .hbm, ⟨38, _⟩ => ⟨S128x256, .f32⟩
  | .hbm, ⟨39, _⟩ => ⟨S128x256, .f32⟩
  | .hbm, ⟨40, _⟩ => ⟨S256x256, .f32⟩
  | .hbm, ⟨41, _⟩ => ⟨S1x256, .f32⟩
  | .hbm, ⟨42, _⟩ => ⟨S65536x256, .f32⟩
  | .hbm, ⟨43, _⟩ => ⟨S_, .i32⟩
  | .hbm, ⟨44, _⟩ => ⟨S262144, .i32⟩
  | .hbm, ⟨45, _⟩ => ⟨S262144, .i1⟩
  | .hbm, ⟨46, _⟩ => ⟨S_, .i32⟩
  | .hbm, ⟨47, _⟩ => ⟨S262144, .i32⟩
  | .hbm, ⟨48, _⟩ => ⟨S262144, .i32⟩
  | .hbm, ⟨49, _⟩ => ⟨S262144, .i32⟩
  | .hbm, ⟨50, _⟩ => ⟨S262144x1, .i32⟩
  | .hbm, ⟨51, _⟩ => ⟨S262144x256, .f32⟩
  | .hbm, ⟨52, _⟩ => ⟨S_, .f32⟩
  | .hbm, ⟨53, _⟩ => ⟨S16384x256, .f32⟩
  | .hbm, ⟨54, _⟩ => ⟨S262144x1, .i32⟩
  | .hbm, ⟨55, _⟩ => ⟨S16384x256, .f32⟩
  | .hbm, ⟨56, _⟩ => ⟨S_, .f32⟩
  | .hbm, ⟨57, _⟩ => ⟨S262144, .f32⟩
  | .hbm, ⟨58, _⟩ => ⟨S_, .f32⟩
  | .hbm, ⟨59, _⟩ => ⟨S16384, .f32⟩
  | .hbm, ⟨60, _⟩ => ⟨S262144x1, .i32⟩
  | .hbm, ⟨61, _⟩ => ⟨S16384, .f32⟩
  | .hbm, ⟨62, _⟩ => ⟨S_, .f32⟩
  | .hbm, ⟨63, _⟩ => ⟨S16384, .f32⟩
  | .hbm, ⟨64, _⟩ => ⟨S16384, .f32⟩
  | .hbm, ⟨65, _⟩ => ⟨S16384x1, .f32⟩
  | .hbm, ⟨66, _⟩ => ⟨S16384x256, .f32⟩
  | .hbm, ⟨67, _⟩ => ⟨S16384x256, .f32⟩
  | .hbm, ⟨68, _⟩ => ⟨S16384x256, .f32⟩
  | .hbm, ⟨69, _⟩ => ⟨S16384x512, .f32⟩
  | .hbm, ⟨70, _⟩ => ⟨S256x64, .f32⟩
  | .hbm, ⟨71, _⟩ => ⟨S256x64, .f32⟩
  | .hbm, ⟨72, _⟩ => ⟨S512x64, .f32⟩
  | .hbm, ⟨73, _⟩ => ⟨S1x64, .f32⟩
  | .hbm, ⟨74, _⟩ => ⟨S16384x64, .f32⟩
  | .local _ .vmem, ⟨0, _⟩ => ⟨S4096x256, .f32⟩
  | .local _ .vmem, ⟨1, _⟩ => ⟨S4096x256, .f32⟩
  | .local _ .vmem, ⟨2, _⟩ => ⟨S256x256, .f32⟩
  | .local _ .vmem, ⟨3, _⟩ => ⟨S1x256, .f32⟩
  | .local _ .vmem, ⟨4, _⟩ => ⟨S4096x256, .f32⟩
  | .local _ .vmem, ⟨5, _⟩ => ⟨S4096x256, .f32⟩
  | .local _ .vmem, ⟨6, _⟩ => ⟨S4096x512, .f32⟩
  | .local _ .vmem, ⟨7, _⟩ => ⟨S4096x512, .f32⟩
  | .local _ .vmem, ⟨8, _⟩ => ⟨S512x64, .f32⟩
  | .local _ .vmem, ⟨9, _⟩ => ⟨S1x64, .f32⟩
  | .local _ .vmem, ⟨10, _⟩ => ⟨S4096x64, .f32⟩
  | .local _ .vmem, ⟨11, _⟩ => ⟨S4096x64, .f32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_4 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_6 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_7 : Ref sig .tc := ⟨.hbm, 56, rfl⟩
abbrev main_v36 : Ref sig .tc := ⟨.hbm, 57, rfl⟩
abbrev main_cst_8 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_9 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4096x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S1048576 : S_.BroadcastsInDim S1048576 (![] : Fin 0 → Fin S1048576.rank)
  bcast_S1048576_S1048576x1_0 : S1048576.BroadcastsInDim S1048576x1 (![0] : Fin 1 → Fin S1048576x1.rank)
  bcast_S_S65536x128 : S_.BroadcastsInDim S65536x128 (![] : Fin 0 → Fin S65536x128.rank)
  bcast_S_S65536 : S_.BroadcastsInDim S65536 (![] : Fin 0 → Fin S65536.rank)
  bcast_S65536_S65536x1_0 : S65536.BroadcastsInDim S65536x1 (![0] : Fin 1 → Fin S65536x1.rank)
  bcast_S65536x1_S65536x128_0_1 : S65536x1.BroadcastsInDim S65536x128 (![0, 1] : Fin 2 → Fin S65536x128.rank)
  slices_S262144x128_S65536x128_0_0 : S262144x128.Slices ![0, 0] S65536x128
  concatenates_S65536x128_S65536x128_S65536x256_d1 : Shape.Concatenates [S65536x128, S65536x128] S65536x256 1
  transposes_S256x128_S128x256_1_0 : S256x128.Transposes [1, 0] S128x256
  concatenates_S128x256_S128x256_S256x256_d0 : Shape.Concatenates [S128x256, S128x256] S256x256 0
  shapeCasts_S256_S1x256 : S256.ShapeCasts S1x256
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  bcast_S_S262144 : S_.BroadcastsInDim S262144 (![] : Fin 0 → Fin S262144.rank)
  bcast_S262144_S262144x1_0 : S262144.BroadcastsInDim S262144x1 (![0] : Fin 1 → Fin S262144x1.rank)
  bcast_S_S16384x256 : S_.BroadcastsInDim S16384x256 (![] : Fin 0 → Fin S16384x256.rank)
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x256_0_1 : S16384x1.BroadcastsInDim S16384x256 (![0, 1] : Fin 2 → Fin S16384x256.rank)
  slices_S65536x256_S16384x256_0_0 : S65536x256.Slices ![0, 0] S16384x256
  concatenates_S16384x256_S16384x256_S16384x512_d1 : Shape.Concatenates [S16384x256, S16384x256] S16384x512 1
  transposes_S64x256_S256x64_1_0 : S64x256.Transposes [1, 0] S256x64
  concatenates_S256x64_S256x64_S512x64_d0 : Shape.Concatenates [S256x64, S256x64] S512x64 0
  shapeCasts_S64_S1x64 : S64.ShapeCasts S1x64
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  reduces_S4096x64_S4096 : S4096x64.Reduces [1] S4096
  shapeCasts_S4096_S4096x1 : S4096.ShapeCasts S4096x1
  broadcasts_S4096x1_S4096x64 : S4096x1.Broadcasts S4096x64
  inb_S4096x64_S4096x64_0_0 : ∀ a, (![0, 0] : Fin 2 → Nat) a + S4096x64.size a ≤ S4096x64.size a
  h_S4096x64 : 0 < S4096x64.numel
  gather_S262144x128_S1048576x1_S1048576x128_1_0_n_n_0_1_1128_wf : GatherDims.WF S262144x128 S1048576x1 S1048576x128 [1] [0] [] [0] [] 1 ![1, 128]
  scatter_S65536x128_S1048576x1_S1048576x128_1_0_0_1_wf : ScatterDims.WF S65536x128 S1048576x1 S1048576x128 [1] [0] [0] 1
  scatter_S65536_S1048576x1_S1048576_n_0_0_1_wf : ScatterDims.WF S65536 S1048576x1 S1048576 [] [0] [0] 1
  dot_S4096x256_S256x256_S4096x256_1_0_0_1_n_n_wf : DotDims.WF S4096x256 S256x256 S4096x256 [1] [0] [0] [1] [] []
  gather_S65536x256_S262144x1_S262144x256_1_0_n_n_0_1_1256_wf : GatherDims.WF S65536x256 S262144x1 S262144x256 [1] [0] [] [0] [] 1 ![1, 256]
  scatter_S16384x256_S262144x1_S262144x256_1_0_0_1_wf : ScatterDims.WF S16384x256 S262144x1 S262144x256 [1] [0] [0] 1
  scatter_S16384_S262144x1_S262144_n_0_0_1_wf : ScatterDims.WF S16384 S262144x1 S262144 [] [0] [0] 1
  dot_S4096x512_S512x64_S4096x64_1_0_0_1_n_n_wf : DotDims.WF S4096x512 S512x64 S4096x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S65536x256.size a
  hwx0_0 : ∀ i : grid0.Coords, EltTy.bits .f32 = 32 ∨ (Rect.block (s := S65536x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x256.size a ≤ S65536x256.size a
  hwx0_3 : ∀ i : grid0.Coords, EltTy.bits .f32 = 32 ∨ (Rect.block (s := S65536x256) S4096x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x512.size a ≤ S16384x512.size a
  hwx1_0 : ∀ i : grid1.Coords, EltTy.bits .f32 = 32 ∨ (Rect.block (s := S16384x512) S4096x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x64.size a ≤ S512x64.size a
  hwx1_1 : ∀ i : grid1.Coords, EltTy.bits .f32 = 32 ∨ (Rect.block (s := S512x64) S512x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4096x64.size a ≤ S16384x64.size a
  hwx1_3 : ∀ i : grid1.Coords, EltTy.bits .f32 = 32 ∨ (Rect.block (s := S16384x64) S4096x64.size (cc1_transform_3 i) (hinb1_3 i)).WholeWords (EltTy.packing .f32)

variable [Facts₀]

def gather_S262144x128_S1048576x1_S1048576x128_1_0_n_n_0_1_1128 : GatherDims S262144x128 S1048576x1 S1048576x128 where
  offsetDims := [1]
  collapsedSliceDims := [0]
  operandBatchingDims := []
  startIndicesBatchingDims := []
  startIndexMap := [0]
  indexVectorDim := 1
  sliceSizes := ![1, 128]
  wf := gather_S262144x128_S1048576x1_S1048576x128_1_0_n_n_0_1_1128_wf
def scatter_S65536x128_S1048576x1_S1048576x128_1_0_0_1 : ScatterDims S65536x128 S1048576x1 S1048576x128 where
  updateWindowDims := [1]
  insertedWindowDims := [0]
  scatterDimsToOperandDims := [0]
  indexVectorDim := 1
  wf := scatter_S65536x128_S1048576x1_S1048576x128_1_0_0_1_wf
def scatter_S65536_S1048576x1_S1048576_n_0_0_1 : ScatterDims S65536 S1048576x1 S1048576 where
  updateWindowDims := []
  insertedWindowDims := [0]
  scatterDimsToOperandDims := [0]
  indexVectorDim := 1
  wf := scatter_S65536_S1048576x1_S1048576_n_0_0_1_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def gather_S65536x256_S262144x1_S262144x256_1_0_n_n_0_1_1256 : GatherDims S65536x256 S262144x1 S262144x256 where
  offsetDims := [1]
  collapsedSliceDims := [0]
  operandBatchingDims := []
  startIndicesBatchingDims := []
  startIndexMap := [0]
  indexVectorDim := 1
  sliceSizes := ![1, 256]
  wf := gather_S65536x256_S262144x1_S262144x256_1_0_n_n_0_1_1256_wf
def scatter_S16384x256_S262144x1_S262144x256_1_0_0_1 : ScatterDims S16384x256 S262144x1 S262144x256 where
  updateWindowDims := [1]
  insertedWindowDims := [0]
  scatterDimsToOperandDims := [0]
  indexVectorDim := 1
  wf := scatter_S16384x256_S262144x1_S262144x256_1_0_0_1_wf
def scatter_S16384_S262144x1_S262144_n_0_0_1 : ScatterDims S16384 S262144x1 S262144 where
  updateWindowDims := []
  insertedWindowDims := [0]
  scatterDimsToOperandDims := [0]
  indexVectorDim := 1
  wf := scatter_S16384_S262144x1_S262144_n_0_0_1_wf
def dot_S4096x512_S512x64_S4096x64_1_0_0_1_n_n : DotDims S4096x512 S512x64 S4096x64 where
  lhsContracting := [1]
  rhsContracting := [0]
  lhsNonContracting := [0]
  rhsNonContracting := [1]
  lhsBatch := []
  rhsBatch := []
  wf := dot_S4096x512_S512x64_S4096x64_1_0_0_1_n_n_wf

abbrev win0_0 : Pipeline.Window sig grid0 :=
  Pipeline.Window.ofSpec (Memref.whole main_v20) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v24) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S4096x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v46) S4096x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49) S512x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v51) S4096x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S262144x128 : Shape := ⟨2, ![262144, 128]⟩
abbrev S1048576 : Shape := ⟨1, ![1048576]⟩
abbrev S262144 : Shape := ⟨1, ![262144]⟩
abbrev S256x128 : Shape := ⟨2, ![256, 128]⟩
abbrev S256 : Shape := ⟨1, ![256]⟩
abbrev S64x256 : Shape := ⟨2, ![64, 256]⟩
abbrev S64 : Shape := ⟨1, ![64]⟩
abbrev S65536x128 : Shape := ⟨2, ![65536, 128]⟩
abbrev S_ : Shape := ⟨0, ![]⟩
abbrev S1048576x1 : Shape := ⟨2, ![1048576, 1]⟩
abbrev S1048576x128 : Shape := ⟨2, ![1048576, 128]⟩
abbrev S65536 : Shape := ⟨1, ![65536]⟩
abbrev S65536x1 : Shape := ⟨2, ![65536, 1]⟩
abbrev S128x256 : Shape := ⟨2, ![128, 256]⟩
abbrev S65536x256 : Shape := ⟨2, ![65536, 256]⟩
abbrev S1x256 : Shape := ⟨2, ![1, 256]⟩
abbrev S16384x256 : Shape := ⟨2, ![16384, 256]⟩
abbrev S262144x1 : Shape := ⟨2, ![262144, 1]⟩
abbrev S262144x256 : Shape := ⟨2, ![262144, 256]⟩
abbrev S16384 : Shape := ⟨1, ![16384]⟩
abbrev S16384x1 : Shape := ⟨2, ![16384, 1]⟩
abbrev S256x64 : Shape := ⟨2, ![256, 64]⟩
abbrev S16384x64 : Shape := ⟨2, ![16384, 64]⟩
abbrev S1x64 : Shape := ⟨2, ![1, 64]⟩

abbrev nBuf : Space → Nat
  | .hbm => 97
  | .vmem => 0
  | .smem => 0
  | _ => 0

abbrev bufTy : (tb : Table) → Fin (tcTables nBuf tb) → BufTy
  | .hbm, ⟨0, _⟩ => ⟨S262144x128, .f32⟩
  | .hbm, ⟨1, _⟩ => ⟨S1048576, .i32⟩
  | .hbm, ⟨2, _⟩ => ⟨S1048576, .i32⟩
  | .hbm, ⟨3, _⟩ => ⟨S262144, .i32⟩
  | .hbm, ⟨4, _⟩ => ⟨S262144, .i32⟩
  | .hbm, ⟨5, _⟩ => ⟨S256x128, .f32⟩
  | .hbm, ⟨6, _⟩ => ⟨S256x128, .f32⟩
  | .hbm, ⟨7, _⟩ => ⟨S256, .f32⟩
  | .hbm, ⟨8, _⟩ => ⟨S64x256, .f32⟩
  | .hbm, ⟨9, _⟩ => ⟨S64x256, .f32⟩
  | .hbm, ⟨10, _⟩ => ⟨S64, .f32⟩
  | .hbm, ⟨11, _⟩ => ⟨S65536x128, .f32⟩
  | .hbm, ⟨12, _⟩ => ⟨S_, .i32⟩
  | .hbm, ⟨13, _⟩ => ⟨S1048576, .i32⟩
  | .hbm, ⟨14, _⟩ => ⟨S1048576, .i1⟩
  | .hbm, ⟨15, _⟩ => ⟨S_, .i32⟩
  | .hbm, ⟨16, _⟩ => ⟨S1048576, .i32⟩
  | .hbm, ⟨17, _⟩ => ⟨S1048576, .i32⟩
  | .hbm, ⟨18, _⟩ => ⟨S1048576, .i32⟩
  | .hbm, ⟨19, _⟩ => ⟨S1048576x1, .i32⟩
  | .hbm, ⟨20, _⟩ => ⟨S1048576x128, .f32⟩
  | .hbm, ⟨21, _⟩ => ⟨S_, .f32⟩
  | .hbm, ⟨22, _⟩ => ⟨S65536x128, .f32⟩
  | .hbm, ⟨23, _⟩ => ⟨S1048576x1, .i32⟩
  | .hbm, ⟨24, _⟩ => ⟨S65536x128, .f32⟩
  | .hbm, ⟨25, _⟩ => ⟨S_, .f32⟩
  | .hbm, ⟨26, _⟩ => ⟨S1048576, .f32⟩
  | .hbm, ⟨27, _⟩ => ⟨S_, .f32⟩
  | .hbm, ⟨28, _⟩ => ⟨S65536, .f32⟩
  | .hbm, ⟨29, _⟩ => ⟨S1048576x1, .i32⟩
  | .hbm, ⟨30, _⟩ => ⟨S65536, .f32⟩
  | .hbm, ⟨31, _⟩ => ⟨S_, .f32⟩
  | .hbm, ⟨32, _⟩ => ⟨S65536, .f32⟩
  | .hbm, ⟨33, _⟩ => ⟨S65536, .f32⟩
  | .hbm, ⟨34, _⟩ => ⟨S65536x1, .f32⟩
  | .hbm, ⟨35, _⟩ => ⟨S65536x128, .f32⟩
  | .hbm, ⟨36, _⟩ => ⟨S65536x128, .f32⟩
  | .hbm, ⟨37, _⟩ => ⟨S128x256, .f32⟩
  | .hbm, ⟨38, _⟩ => ⟨S65536x256, .f32⟩
  | .hbm, ⟨39, _⟩ => ⟨S1x256, .f32⟩
  | .hbm, ⟨40, _⟩ => ⟨S65536x256, .f32⟩
  | .hbm, ⟨41, _⟩ => ⟨S65536x256, .f32⟩
  | .hbm, ⟨42, _⟩ => ⟨S128x256, .f32⟩
  | .hbm, ⟨43, _⟩ => ⟨S65536x256, .f32⟩
  | .hbm, ⟨44, _⟩ => ⟨S65536x256, .f32⟩
  | .hbm, ⟨45, _⟩ => ⟨S_, .f32⟩
  | .hbm, ⟨46, _⟩ => ⟨S65536x256, .f32⟩
  | .hbm, ⟨47, _⟩ => ⟨S65536x256, .f32⟩
  | .hbm, ⟨48, _⟩ => ⟨S16384x256, .f32⟩
  | .hbm, ⟨49, _⟩ => ⟨S_, .i32⟩
  | .hbm, ⟨50, _⟩ => ⟨S262144, .i32⟩
  | .hbm, ⟨51, _⟩ => ⟨S262144, .i1⟩
  | .hbm, ⟨52, _⟩ => ⟨S_, .i32⟩
  | .hbm, ⟨53, _⟩ => ⟨S262144, .i32⟩
  | .hbm, ⟨54, _⟩ => ⟨S262144, .i32⟩
  | .hbm, ⟨55, _⟩ => ⟨S262144, .i32⟩
  | .hbm, ⟨56, _⟩ => ⟨S262144x1, .i32⟩
  | .hbm, ⟨57, _⟩ => ⟨S262144x256, .f32⟩
  | .hbm, ⟨58, _⟩ => ⟨S_, .f32⟩
  | .hbm, ⟨59, _⟩ => ⟨S16384x256, .f32⟩
  | .hbm, ⟨60, _⟩ => ⟨S262144x1, .i32⟩
  | .hbm, ⟨61, _⟩ => ⟨S16384x256, .f32⟩
  | .hbm, ⟨62, _⟩ => ⟨S_, .f32⟩
  | .hbm, ⟨63, _⟩ => ⟨S262144, .f32⟩
  | .hbm, ⟨64, _⟩ => ⟨S_, .f32⟩
  | .hbm, ⟨65, _⟩ => ⟨S16384, .f32⟩
  | .hbm, ⟨66, _⟩ => ⟨S262144x1, .i32⟩
  | .hbm, ⟨67, _⟩ => ⟨S16384, .f32⟩
  | .hbm, ⟨68, _⟩ => ⟨S_, .f32⟩
  | .hbm, ⟨69, _⟩ => ⟨S16384, .f32⟩
  | .hbm, ⟨70, _⟩ => ⟨S16384, .f32⟩
  | .hbm, ⟨71, _⟩ => ⟨S16384x1, .f32⟩
  | .hbm, ⟨72, _⟩ => ⟨S16384x256, .f32⟩
  | .hbm, ⟨73, _⟩ => ⟨S16384x256, .f32⟩
  | .hbm, ⟨74, _⟩ => ⟨S256x64, .f32⟩
  | .hbm, ⟨75, _⟩ => ⟨S16384x64, .f32⟩
  | .hbm, ⟨76, _⟩ => ⟨S1x64, .f32⟩
  | .hbm, ⟨77, _⟩ => ⟨S16384x64, .f32⟩
  | .hbm, ⟨78, _⟩ => ⟨S16384x64, .f32⟩
  | .hbm, ⟨79, _⟩ => ⟨S256x64, .f32⟩
  | .hbm, ⟨80, _⟩ => ⟨S16384x64, .f32⟩
  | .hbm, ⟨81, _⟩ => ⟨S16384x64, .f32⟩
  | .hbm, ⟨82, _⟩ => ⟨S_, .f32⟩
  | .hbm, ⟨83, _⟩ => ⟨S16384, .f32⟩
  | .hbm, ⟨84, _⟩ => ⟨S_, .f32⟩
  | .hbm, ⟨85, _⟩ => ⟨S16384, .f32⟩
  | .hbm, ⟨86, _⟩ => ⟨S16384, .f32⟩
  | .hbm, ⟨87, _⟩ => ⟨S16384x1, .f32⟩
  | .hbm, ⟨88, _⟩ => ⟨S16384x64, .f32⟩
  | .hbm, ⟨89, _⟩ => ⟨S16384x64, .f32⟩
  | .hbm, ⟨90, _⟩ => ⟨S16384x64, .f32⟩
  | .hbm, ⟨91, _⟩ => ⟨S_, .f32⟩
  | .hbm, ⟨92, _⟩ => ⟨S16384, .f32⟩
  | .hbm, ⟨93, _⟩ => ⟨S16384x1, .f32⟩
  | .hbm, ⟨94, _⟩ => ⟨S16384x1, .f32⟩
  | .hbm, ⟨95, _⟩ => ⟨S16384x64, .f32⟩
  | .hbm, ⟨96, _⟩ => ⟨S16384x64, .f32⟩
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_cst_2 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_call0_cst : Ref sig .tc := ⟨.hbm, 45, rfl⟩
abbrev main_call0_v0 : Ref sig .tc := ⟨.hbm, 46, rfl⟩
abbrev main_v28 : Ref sig .tc := ⟨.hbm, 47, rfl⟩
abbrev main_v29 : Ref sig .tc := ⟨.hbm, 48, rfl⟩
abbrev main_c_4 : Ref sig .tc := ⟨.hbm, 49, rfl⟩
abbrev main_v30 : Ref sig .tc := ⟨.hbm, 50, rfl⟩
abbrev main_v31 : Ref sig .tc := ⟨.hbm, 51, rfl⟩
abbrev main_c_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_6 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_7 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_9 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_call1_cst : Ref sig .tc := ⟨.hbm, 82, rfl⟩
abbrev main_call1_v0 : Ref sig .tc := ⟨.hbm, 83, rfl⟩
abbrev main_call1_cst_0 : Ref sig .tc := ⟨.hbm, 84, rfl⟩
abbrev main_call1_v1 : Ref sig .tc := ⟨.hbm, 85, rfl⟩
abbrev main_call1_v2 : Ref sig .tc := ⟨.hbm, 86, rfl⟩
abbrev main_call1_v3 : Ref sig .tc := ⟨.hbm, 87, rfl⟩
abbrev main_call1_v4 : Ref sig .tc := ⟨.hbm, 88, rfl⟩
abbrev main_call1_v5 : Ref sig .tc := ⟨.hbm, 89, rfl⟩
abbrev main_call1_v6 : Ref sig .tc := ⟨.hbm, 90, rfl⟩
abbrev main_call1_cst_1 : Ref sig .tc := ⟨.hbm, 91, rfl⟩
abbrev main_call1_v7 : Ref sig .tc := ⟨.hbm, 92, rfl⟩
abbrev main_call1_v8 : Ref sig .tc := ⟨.hbm, 93, rfl⟩
abbrev main_call1_v9 : Ref sig .tc := ⟨.hbm, 94, rfl⟩
abbrev main_call1_v10 : Ref sig .tc := ⟨.hbm, 95, rfl⟩
abbrev main_v57 : Ref sig .tc := ⟨.hbm, 96, rfl⟩

abbrev nD : Nat := 1
abbrev τ : Topo := Topo.v7x

variable {F : FTy → Type} [FloatOps F]

class Facts₀ : Prop where
  slices_S262144x128_S65536x128_0_0 : S262144x128.Slices ![0, 0] S65536x128
  bcast_S_S1048576 : S_.BroadcastsInDim S1048576 (![] : Fin 0 → Fin S1048576.rank)
  bcast_S1048576_S1048576x1_0 : S1048576.BroadcastsInDim S1048576x1 (![0] : Fin 1 → Fin S1048576x1.rank)
  bcast_S_S65536x128 : S_.BroadcastsInDim S65536x128 (![] : Fin 0 → Fin S65536x128.rank)
  bcast_S_S65536 : S_.BroadcastsInDim S65536 (![] : Fin 0 → Fin S65536.rank)
  bcast_S65536_S65536x1_0 : S65536.BroadcastsInDim S65536x1 (![0] : Fin 1 → Fin S65536x1.rank)
  bcast_S65536x1_S65536x128_0_1 : S65536x1.BroadcastsInDim S65536x128 (![0, 1] : Fin 2 → Fin S65536x128.rank)
  transposes_S256x128_S128x256_1_0 : S256x128.Transposes [1, 0] S128x256
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  bcast_S_S65536x256 : S_.BroadcastsInDim S65536x256 (![] : Fin 0 → Fin S65536x256.rank)
  slices_S65536x256_S16384x256_0_0 : S65536x256.Slices ![0, 0] S16384x256
  bcast_S_S262144 : S_.BroadcastsInDim S262144 (![] : Fin 0 → Fin S262144.rank)
  bcast_S262144_S262144x1_0 : S262144.BroadcastsInDim S262144x1 (![0] : Fin 1 → Fin S262144x1.rank)
  bcast_S_S16384x256 : S_.BroadcastsInDim S16384x256 (![] : Fin 0 → Fin S16384x256.rank)
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x256_0_1 : S16384x1.BroadcastsInDim S16384x256 (![0, 1] : Fin 2 → Fin S16384x256.rank)
  transposes_S64x256_S256x64_1_0 : S64x256.Transposes [1, 0] S256x64
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  reducesTo_S16384x64_S16384_d1 : S16384x64.ReducesTo [1] S16384
  h_S_ : 0 < S_.numel
  bcast_S16384x1_S16384x64_0_1 : S16384x1.BroadcastsInDim S16384x64 (![0, 1] : Fin 2 → Fin S16384x64.rank)
  gather_S262144x128_S1048576x1_S1048576x128_1_0_n_n_0_1_1128_wf : GatherDims.WF S262144x128 S1048576x1 S1048576x128 [1] [0] [] [0] [] 1 ![1, 128]
  scatter_S65536x128_S1048576x1_S1048576x128_1_0_0_1_wf : ScatterDims.WF S65536x128 S1048576x1 S1048576x128 [1] [0] [0] 1
  scatter_S65536_S1048576x1_S1048576_n_0_0_1_wf : ScatterDims.WF S65536 S1048576x1 S1048576 [] [0] [0] 1
  dot_S65536x128_S128x256_S65536x256_1_0_0_1_n_n_wf : DotDims.WF S65536x128 S128x256 S65536x256 [1] [0] [0] [1] [] []
  gather_S65536x256_S262144x1_S262144x256_1_0_n_n_0_1_1256_wf : GatherDims.WF S65536x256 S262144x1 S262144x256 [1] [0] [] [0] [] 1 ![1, 256]
  scatter_S16384x256_S262144x1_S262144x256_1_0_0_1_wf : ScatterDims.WF S16384x256 S262144x1 S262144x256 [1] [0] [0] 1
  scatter_S16384_S262144x1_S262144_n_0_0_1_wf : ScatterDims.WF S16384 S262144x1 S262144 [] [0] [0] 1
  dot_S16384x256_S256x64_S16384x64_1_0_0_1_n_n_wf : DotDims.WF S16384x256 S256x64 S16384x64 [1] [0] [0] [1] [] []

variable [Facts₀]

def gather_S262144x128_S1048576x1_S1048576x128_1_0_n_n_0_1_1128 : GatherDims S262144x128 S1048576x1 S1048576x128 where
  offsetDims := [1]
  collapsedSliceDims := [0]
  operandBatchingDims := []
  startIndicesBatchingDims := []
  startIndexMap := [0]
  indexVectorDim := 1
  sliceSizes := ![1, 128]
  wf := gather_S262144x128_S1048576x1_S1048576x128_1_0_n_n_0_1_1128_wf
def scatter_S65536x128_S1048576x1_S1048576x128_1_0_0_1 : ScatterDims S65536x128 S1048576x1 S1048576x128 where
  updateWindowDims := [1]
  insertedWindowDims := [0]
  scatterDimsToOperandDims := [0]
  indexVectorDim := 1
  wf := scatter_S65536x128_S1048576x1_S1048576x128_1_0_0_1_wf
def scatter_S65536_S1048576x1_S1048576_n_0_0_1 : ScatterDims S65536 S1048576x1 S1048576 where
  updateWindowDims := []
  insertedWindowDims := [0]
  scatterDimsToOperandDims := [0]
  indexVectorDim := 1
  wf := scatter_S65536_S1048576x1_S1048576_n_0_0_1_wf
def dot_S65536x128_S128x256_S65536x256_1_0_0_1_n_n : DotDims S65536x128 S128x256 S65536x256 where
  lhsContracting := [1]
  rhsContracting := [0]
  lhsNonContracting := [0]
  rhsNonContracting := [1]
  lhsBatch := []
  rhsBatch := []
  wf := dot_S65536x128_S128x256_S65536x256_1_0_0_1_n_n_wf
def gather_S65536x256_S262144x1_S262144x256_1_0_n_n_0_1_1256 : GatherDims S65536x256 S262144x1 S262144x256 where
  offsetDims := [1]
  collapsedSliceDims := [0]
  operandBatchingDims := []
  startIndicesBatchingDims := []
  startIndexMap := [0]
  indexVectorDim := 1
  sliceSizes := ![1, 256]
  wf := gather_S65536x256_S262144x1_S262144x256_1_0_n_n_0_1_1256_wf
def scatter_S16384x256_S262144x1_S262144x256_1_0_0_1 : ScatterDims S16384x256 S262144x1 S262144x256 where
  updateWindowDims := [1]
  insertedWindowDims := [0]
  scatterDimsToOperandDims := [0]
  indexVectorDim := 1
  wf := scatter_S16384x256_S262144x1_S262144x256_1_0_0_1_wf
def scatter_S16384_S262144x1_S262144_n_0_0_1 : ScatterDims S16384 S262144x1 S262144 where
  updateWindowDims := []
  insertedWindowDims := [0]
  scatterDimsToOperandDims := [0]
  indexVectorDim := 1
  wf := scatter_S16384_S262144x1_S262144_n_0_0_1_wf
def dot_S16384x256_S256x64_S16384x64_1_0_0_1_n_n : DotDims S16384x256 S256x64 S16384x64 where
  lhsContracting := [1]
  rhsContracting := [0]
  lhsNonContracting := [0]
  rhsNonContracting := [1]
  lhsBatch := []
  rhsBatch := []
  wf := dot_S16384x256_S256x64_S16384x64_1_0_0_1_n_n_wf

class Facts : Prop extends Facts₀ where

variable [Facts]
-- ==== Proof.LibRowLayers.lean ====
/-
  Rows of two-dimensional arrays over the extended reals, and the layers of a row-wise network.

  A point-wise multilayer perceptron treats every row of its input matrix alone: a dense layer sends the row
  `h` to `j ↦ (∑ k, h k · w[k, j]) + b j`, a rectifier takes the maximum with a threshold entry by entry, a
  concatenation along the columns sets two rows side by side. This file names those three row functions
  (`dense`, `relu`, `join`) and reads, ROW BY ROW, the array operations that compute them: a matrix product
  into a zero accumulator (the device's) or with no accumulator (the host's) whose dimension numbers say
  "rows times columns" (`RowsTimesCols`), the addition of a bias row broadcast down the rows, the maximum
  with a splat constant, a slice of columns, and a concatenation of columns. Every statement is for an
  arbitrary number of rows, so one calculus serves a block of rows and the whole array alike.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.RowLayers

open Idealize.ShloMosaic Idealize.ShloMosaic.ValueIdx

/-! ## Rows, and the three row functions -/

section Rows
variable {α : Type}

/-- Row `p` of an `[a, b]` array: the function `k ↦ v[p, k]`. -/
def rowOf {a b : ℕ} (v : (⟨2, ![a, b]⟩ : Shape).Idx → α) (p : Fin a) : Fin b → α := fun k => v (ix2 p k)

theorem rowOf_apply {a b : ℕ} (v : (⟨2, ![a, b]⟩ : Shape).Idx → α) (p : Fin a) (k : Fin b) : rowOf v p k = v (ix2 p k) := rfl

/-- An array read at an index is its row at the first coordinate read at the second. -/
theorem apply_eq_rowOf {a b : ℕ} (v : (⟨2, ![a, b]⟩ : Shape).Idx → α) (i : (⟨2, ![a, b]⟩ : Shape).Idx) : v i = rowOf v (i 0) (i 1) :=
  congrArg v (eq_ix2 i)

/-- Two rows side by side: the first `A` entries are `f`'s, the next `B` are `g`'s. -/
def join {A B C : ℕ} (hC : C = A + B) (f : Fin A → α) (g : Fin B → α) : Fin C → α :=
  fun k => if h : k.val < A then f ⟨k.val, h⟩ else g ⟨k.val - A, by have := k.isLt; omega⟩

end Rows

/-- A dense layer on a row `h`: entry `j` is `(∑ k, h k · w[k, j]) + b j`. -/
def dense {K J : ℕ} (h : Fin K → EReal) (w : (⟨2, ![K, J]⟩ : Shape).Idx → EReal) (b : Fin J → EReal) : Fin J → EReal :=
  fun j => (∑ k : Fin K, h k * w (ix2 k j)) + b j

/-- The rectifier with threshold `z`, entry by entry: `max (f j) z`. -/
def relu {J : ℕ} (z : EReal) (f : Fin J → EReal) : Fin J → EReal := fun j => max (f j) z

/-! ## A matrix product whose dimension numbers say "rows times columns" -/

section Contraction
variable {a K b : ℕ} (d : DotDims ⟨2, ![a, K]⟩ ⟨2, ![K, b]⟩ ⟨2, ![a, b]⟩)

/-- The dimension numbers of an `[a, K] × [K, b] → [a, b]` product contract ONE axis, of extent `K`, and read the
    left operand at (output row, contracted position) and the right one at (contracted position, output column). -/
structure RowsTimesCols : Prop where
  rank : d.contr.rank = 1
  size : d.contr.size ⟨0, by omega⟩ = K
  lhs0 : ∀ (j : (⟨2, ![a, b]⟩ : Shape).Idx) (q : d.contr.Idx), (d.lhsIdx j q 0).val = (j 0).val
  lhs1 : ∀ (j : (⟨2, ![a, b]⟩ : Shape).Idx) (q : d.contr.Idx), (d.lhsIdx j q 1).val = (q ⟨0, by omega⟩).val
  rhs0 : ∀ (j : (⟨2, ![a, b]⟩ : Shape).Idx) (q : d.contr.Idx), (d.rhsIdx j q 0).val = (q ⟨0, by omega⟩).val
  rhs1 : ∀ (j : (⟨2, ![a, b]⟩ : Shape).Idx) (q : d.contr.Idx), (d.rhsIdx j q 1).val = (j 1).val

variable {d}

/-- The sum over the contraction's index set, re-indexed by the contracted position `k < K`: entry `(p, q)` of the
    product is `∑ k, lhs[p, k] · rhs[k, q]`. -/
theorem RowsTimesCols.sum_eq (H : RowsTimesCols d) (lhs : (⟨2, ![a, K]⟩ : Shape).Idx → EReal) (rhs : (⟨2, ![K, b]⟩ : Shape).Idx → EReal)
    (p : Fin a) (q : Fin b) :
    (∑ k : d.contr.Idx, lhs (d.lhsIdx (ix2 p q) k) * rhs (d.rhsIdx (ix2 p q) k)) = ∑ k : Fin K, lhs (ix2 p k) * rhs (ix2 k q) := by
  rw [← Equiv.sum_comp (contrEquiv1 d K H.rank H.size).symm]
  refine Finset.sum_congr rfl fun k _ => ?_
  have hk := contrEquiv1_symm_val d K H.rank H.size k
  have el : d.lhsIdx (ix2 p q) ((contrEquiv1 d K H.rank H.size).symm k) = ix2 p k := funext fun ax => Fin.ext (by
    match ax with
    | ⟨0, _⟩ => exact H.lhs0 _ _
    | ⟨1, _⟩ => exact (H.lhs1 _ _).trans hk)
  have er : d.rhsIdx (ix2 p q) ((contrEquiv1 d K H.rank H.size).symm k) = ix2 k q := funext fun ax => Fin.ext (by
    match ax with
    | ⟨0, _⟩ => exact (H.rhs0 _ _).trans hk
    | ⟨1, _⟩ => exact H.rhs1 _ _)
  rw [el, er]

/-- Row `p` of the device's product into a zero accumulator. -/
theorem rowOf_matmul_zero {φ₁ φ₂ : FTy} (H : RowsTimesCols d) (prec : Option ContractPrecision)
    (lhs : FVec Ideal ⟨2, ![a, K]⟩ φ₁) (rhs : FVec Ideal ⟨2, ![K, b]⟩ φ₂) (p : Fin a) :
    rowOf (matmul d prec lhs rhs (constant (F := Ideal) ⟨2, ![a, b]⟩ .f32 0x00000000#32)) p
      = fun j => ∑ k : Fin K, rowOf lhs p k * rhs (ix2 k j) := by
  funext j
  show FloatOps.matmul d prec lhs rhs (constant (F := Ideal) ⟨2, ![a, b]⟩ .f32 0x00000000#32) (ix2 p j) = _
  rw [Ideal.matmul_constant_zero_apply]
  exact H.sum_eq lhs rhs p j

/-- Row `p` of the host's product. -/
theorem rowOf_dotGeneral {φ₁ φ₂ : FTy} (H : RowsTimesCols d) (prec : Option ContractPrecision)
    (lhs : FVec Ideal ⟨2, ![a, K]⟩ φ₁) (rhs : FVec Ideal ⟨2, ![K, b]⟩ φ₂) (p : Fin a) :
    rowOf (Host.dotGeneral (F := Ideal) d prec lhs rhs) p = fun j => ∑ k : Fin K, rowOf lhs p k * rhs (ix2 k j) := by
  funext j
  show FloatOps.dotGeneral d prec .single lhs rhs (ix2 p j) = _
  rw [Ideal.dotGeneral_apply]
  exact H.sum_eq lhs rhs p j

end Contraction

/-! ## The other operations, read on a row -/

section Ops
variable {a b : ℕ} {φ : FTy}

/-- A sum of arrays, on a row. -/
theorem rowOf_addf (x y : FVec Ideal ⟨2, ![a, b]⟩ φ) (p : Fin a) : rowOf (addf x y) p = fun j => rowOf x p j + rowOf y p j := rfl

/-- A change of float format does nothing to an extended real. -/
theorem rowOf_truncf {ψ : FTy} (x : FVec Ideal ⟨2, ![a, b]⟩ φ) (h : ψ.bits < φ.bits) (p : Fin a) :
    rowOf (truncf ψ x h : FVec Ideal ⟨2, ![a, b]⟩ ψ) p = rowOf x p := rfl

/-- The maximum with a splat scalar is the rectifier at that scalar. -/
theorem rowOf_maximumf_splat (x : FVec Ideal ⟨2, ![a, b]⟩ φ) (z : Ideal φ) (p : Fin a) :
    rowOf (maximumf x (broadcast ⟨2, ![a, b]⟩ z)) p = relu z (rowOf x p) := rfl

/-- The maximum with a rank-0 constant broadcast over the array is the rectifier at that constant. -/
theorem rowOf_maximumf_const {s : Shape} (x : FVec Ideal ⟨2, ![a, b]⟩ φ) (w : BitVec φ.bits) (dims : Fin s.rank → Fin 2)
    (h : s.BroadcastsInDim ⟨2, ![a, b]⟩ dims) (p : Fin a) :
    rowOf (maximumf x (broadcastInDim ⟨2, ![a, b]⟩ dims h (constant (F := Ideal) s φ w))) p = relu (Ideal.ofBits φ w) (rowOf x p) := rfl

/-- One row broadcast down `a` rows: every row is that row. -/
theorem rowOf_broadcastTo {α : Type} (v : (⟨2, ![1, b]⟩ : Shape).Idx → α) (h : (⟨2, ![1, b]⟩ : Shape).Broadcasts ⟨2, ![a, b]⟩) (p : Fin a) :
    rowOf (broadcastTo ⟨2, ![a, b]⟩ v h) p = rowOf v 0 :=
  funext fun c => broadcastTo_1b_ab_apply v h p c

/-- The host's form of the same: a `[b]` vector first given a unit leading axis, then broadcast down `a` rows. -/
theorem rowOf_broadcastInDim_vec {α : Type} (x : (⟨1, ![b]⟩ : Shape).Idx → α)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (broadcastInDim ⟨2, ![a, b]⟩ ![0, 1] h2 (broadcastInDim ⟨2, ![1, b]⟩ ![1] h1 x)) p = fun j => x (ix1 j) := by
  funext c
  show broadcastInDim ⟨2, ![a, b]⟩ ![0, 1] h2 (broadcastInDim ⟨2, ![1, b]⟩ ![1] h1 x) (ix2 p c) = x (ix1 c)
  rw [broadcastInDim_apply ![0, 1] h2 _ (ix2 p c) (ix2 (0 : Fin 1) c) (fun ax => by
        match ax with
        | ⟨0, _⟩ => show (0 : ℕ) = if (1 : ℕ) = 1 then 0 else p.val; rw [if_pos rfl]
        | ⟨1, _⟩ => show c.val = if b = 1 then 0 else c.val; split <;> [(have := c.isLt; omega); rfl]),
      broadcastInDim_apply ![1] h1 x (ix2 (0 : Fin 1) c) (ix1 c) (fun ax => by
        match ax with
        | ⟨0, _⟩ => show c.val = if b = 1 then 0 else c.val; split <;> [(have := c.isLt; omega); rfl])]

/-- A window of `m` columns from column `o`: the row's entries from `o` on. -/
theorem rowOf_slice_cols {α : Type} {n m : ℕ} (o : ℕ) (X : (⟨2, ![a, n]⟩ : Shape).Idx → α)
    (h : (⟨2, ![a, n]⟩ : Shape).Slices ![0, o] ⟨2, ![a, m]⟩) (p : Fin a) :
    rowOf (extractStridedSlice ⟨2, ![a, m]⟩ ![0, o] X h) p
      = fun j => rowOf X p ⟨o + j.val, Nat.lt_of_lt_of_le (Nat.add_lt_add_left j.isLt o) (h.2 1)⟩ :=
  funext fun j => slice2_axis1_eq o X h p j

/-- Two arrays concatenated along the columns: each row is the two rows side by side. -/
theorem rowOf_concat_cols {α : Type} {A B C : ℕ} (x : (⟨2, ![a, A]⟩ : Shape).Idx → α) (y : (⟨2, ![a, B]⟩ : Shape).Idx → α)
    (h : Shape.Concatenates [(⟨2, ![a, A]⟩ : Shape), ⟨2, ![a, B]⟩] ⟨2, ![a, C]⟩ 1) (hC : C = A + B) (p : Fin a) :
    rowOf (concatenate ⟨2, ![a, C]⟩ 1 [⟨⟨2, ![a, A]⟩, x⟩, ⟨⟨2, ![a, B]⟩, y⟩] h) p = join hC (rowOf x p) (rowOf y p) := by
  funext k
  show concatenate ⟨2, ![a, C]⟩ 1 [⟨⟨2, ![a, A]⟩, x⟩, ⟨⟨2, ![a, B]⟩, y⟩] h (ix2 p k) = _
  unfold join
  by_cases hk : k.val < A
  · rw [dif_pos hk]
    exact concatenate_pair_apply_left 1 x y h (ix2 p k) rfl (ix2 p ⟨k.val, hk⟩) (fun ax => by
      match ax with
      | ⟨0, _⟩ => rfl
      | ⟨1, _⟩ => rfl)
  · rw [dif_neg hk]
    have hk' : A ≤ k.val := Nat.le_of_not_lt hk
    exact concatenate_pair_apply_right 1 x y h (ix2 p k) rfl rfl (ix2 p ⟨k.val - A, by have := k.isLt; omega⟩)
      (fun ax hne => by
        match ax with
        | ⟨0, _⟩ => rfl
        | ⟨1, _⟩ => exact absurd rfl hne)
      (by show k.val - A + A = k.val; omega)

end Ops

/-! ## A dense layer as each program prints it -/

section Dense
variable {a K b : ℕ} {d : DotDims ⟨2, ![a, K]⟩ ⟨2, ![K, b]⟩ ⟨2, ![a, b]⟩} {φ₁ φ₂ : FTy}

/-- The device's dense layer — a product into a zero accumulator plus a `[1, b]` bias row broadcast down the rows —
    sends row `p` of the input to `dense` of it. -/
theorem rowOf_dense_device (H : RowsTimesCols d) (prec : Option ContractPrecision)
    (h : FVec Ideal ⟨2, ![a, K]⟩ φ₁) (w : FVec Ideal ⟨2, ![K, b]⟩ φ₂) (bias : FVec Ideal ⟨2, ![1, b]⟩ .f32)
    (hB : (⟨2, ![1, b]⟩ : Shape).Broadcasts ⟨2, ![a, b]⟩) (p : Fin a) :
    rowOf (addf (matmul d prec h w (constant (F := Ideal) ⟨2, ![a, b]⟩ .f32 0x00000000#32)) (broadcastTo ⟨2, ![a, b]⟩ bias hB)) p
      = dense (rowOf h p) w (rowOf bias 0) := by
  rw [rowOf_addf, rowOf_matmul_zero H, rowOf_broadcastTo]
  rfl

/-- The host's dense layer — a product plus a `[b]` bias vector given a unit leading axis and broadcast down the
    rows — sends row `p` of the input to `dense` of it. -/
theorem rowOf_dense_host (H : RowsTimesCols d) (prec : Option ContractPrecision)
    (h : FVec Ideal ⟨2, ![a, K]⟩ φ₁) (w : FVec Ideal ⟨2, ![K, b]⟩ φ₂) (bias : FVec Ideal ⟨1, ![b]⟩ .f32)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (addf (Host.dotGeneral (F := Ideal) d prec h w) (broadcastInDim ⟨2, ![a, b]⟩ ![0, 1] h2 (broadcastInDim ⟨2, ![1, b]⟩ ![1] h1 bias))) p
      = dense (rowOf h p) w (fun j => bias (ix1 j)) := by
  rw [rowOf_addf, rowOf_dotGeneral H, rowOf_broadcastInDim_vec]
  rfl

end Dense

end Cert.RowLayers

end
-- ==== Proof.LibRowExtras.lean ====
/-
  More row readings of two-dimensional arrays over the extended reals, beside LibRowLayers:
  entry-by-entry maps (a product, tanh, exp, on the device and on the host) read on a row; a vector given a
  unit leading axis, read as its one row; and three arrays set side by side along the columns, read on a row
  as a join of a join.
-/
import proofs.«149258_j36344013259382_1_alg».proof.Proof.LibRowLayers

noncomputable section

namespace Cert.RowLayers

open Idealize.ShloMosaic Idealize.ShloMosaic.ValueIdx

/-- A vector [n] as a function of its one coordinate. -/
def vec {α : Type} {n : ℕ} (x : (⟨1, ![n]⟩ : Shape).Idx → α) : Fin n → α := fun j => x (ix1 j)

section Maps
variable {a b : ℕ} {φ : FTy}

/-- A product of arrays, on a row. -/
theorem rowOf_mulf (x y : FVec Ideal ⟨2, ![a, b]⟩ φ) (p : Fin a) : rowOf (mulf x y) p = fun j => rowOf x p j * rowOf y p j := rfl

/-- The device's tanh, on a row. -/
theorem rowOf_tanh (x : FVec Ideal ⟨2, ![a, b]⟩ φ) (p : Fin a) : rowOf (tanh x) p = fun j => Ideal.tanh (rowOf x p j) := rfl

/-- The device's exp, on a row. -/
theorem rowOf_exp (x : FVec Ideal ⟨2, ![a, b]⟩ φ) (p : Fin a) : rowOf (exp x) p = fun j => Ideal.exp (rowOf x p j) := rfl

/-- The host's tanh, on a row: the same function. -/
theorem rowOf_hostTanh (x : FVec Ideal ⟨2, ![a, b]⟩ φ) (p : Fin a) : rowOf (Host.tanh x) p = fun j => Ideal.tanh (rowOf x p j) := rfl

/-- The host's exp, on a row: the same function. -/
theorem rowOf_hostExp (x : FVec Ideal ⟨2, ![a, b]⟩ φ) (p : Fin a) : rowOf (Host.exp x) p = fun j => Ideal.exp (rowOf x p j) := rfl

/-- A splat scalar, on a row. -/
theorem rowOf_broadcast (z : Ideal φ) (p : Fin a) : rowOf (broadcast (⟨2, ![a, b]⟩ : Shape) z) p = fun _ => z := rfl

/-- A rank-0 constant broadcast over the array, on a row. -/
theorem rowOf_broadcastInDim_const {s : Shape} (w : BitVec φ.bits) (dims : Fin s.rank → Fin 2)
    (h : s.BroadcastsInDim ⟨2, ![a, b]⟩ dims) (p : Fin a) :
    rowOf (broadcastInDim ⟨2, ![a, b]⟩ dims h (constant (F := Ideal) s φ w)) p = fun _ => Ideal.ofBits φ w := rfl

end Maps

/-- A vector [n] viewed as [1, n]: its one row is the vector. -/
theorem rowOf_shapeCast_lead {α : Type} {n : ℕ} (x : (⟨1, ![n]⟩ : Shape).Idx → α)
    (h : (⟨1, ![n]⟩ : Shape).ShapeCasts ⟨2, ![1, n]⟩) : rowOf (shapeCast ⟨2, ![1, n]⟩ x h) 0 = vec x :=
  funext fun j => shapeCast_a_1a_apply x h 0 j

/-- Three arrays concatenated along the columns: each row is the three rows side by side. -/
theorem rowOf_concat3_cols {α : Type} {a A B C E D : ℕ} (x : (⟨2, ![a, A]⟩ : Shape).Idx → α) (y : (⟨2, ![a, B]⟩ : Shape).Idx → α)
    (z : (⟨2, ![a, C]⟩ : Shape).Idx → α)
    (h : Shape.Concatenates [(⟨2, ![a, A]⟩ : Shape), ⟨2, ![a, B]⟩, ⟨2, ![a, C]⟩] ⟨2, ![a, D]⟩ 1) (hE : E = A + B) (hD : D = E + C) (p : Fin a) :
    rowOf (concatenate ⟨2, ![a, D]⟩ 1 [⟨⟨2, ![a, A]⟩, x⟩, ⟨⟨2, ![a, B]⟩, y⟩, ⟨⟨2, ![a, C]⟩, z⟩] h) p
      = join hD (join hE (rowOf x p) (rowOf y p)) (rowOf z p) := by
  funext k
  show concatenate ⟨2, ![a, D]⟩ 1 [⟨⟨2, ![a, A]⟩, x⟩, ⟨⟨2, ![a, B]⟩, y⟩, ⟨⟨2, ![a, C]⟩, z⟩] h (ix2 p k) = _
  unfold join
  by_cases hk : k.val < E
  · rw [dif_pos hk]
    by_cases hk' : k.val < A
    · rw [dif_pos hk']
      exact concatenate_apply_piece 1 [⟨⟨2, ![a, A]⟩, x⟩, ⟨⟨2, ![a, B]⟩, y⟩, ⟨⟨2, ![a, C]⟩, z⟩] h (ix2 p k) 0 (by show 0 < 3; omega) _ x rfl rfl 0 rfl (ix2 p ⟨k.val, hk'⟩)
        (fun ax hne => by
          match ax with
          | ⟨0, _⟩ => rfl
          | ⟨1, _⟩ => exact absurd rfl hne)
        (by show 0 + k.val = k.val; omega)
    · rw [dif_neg hk']
      exact concatenate_apply_piece 1 [⟨⟨2, ![a, A]⟩, x⟩, ⟨⟨2, ![a, B]⟩, y⟩, ⟨⟨2, ![a, C]⟩, z⟩] h (ix2 p k) 1 (by show 1 < 3; omega) _ y rfl rfl A rfl (ix2 p ⟨k.val - A, by omega⟩)
        (fun ax hne => by
          match ax with
          | ⟨0, _⟩ => rfl
          | ⟨1, _⟩ => exact absurd rfl hne)
        (by show A + (k.val - A) = k.val; omega)
  · rw [dif_neg hk]
    exact concatenate_apply_piece 1 [⟨⟨2, ![a, A]⟩, x⟩, ⟨⟨2, ![a, B]⟩, y⟩, ⟨⟨2, ![a, C]⟩, z⟩] h (ix2 p k) 2 (by show 2 < 3; omega) _ z rfl rfl E (by subst hE; rfl) (ix2 p ⟨k.val - E, by have := k.isLt; omega⟩)
      (fun ax hne => by
        match ax with
        | ⟨0, _⟩ => rfl
        | ⟨1, _⟩ => exact absurd rfl hne)
      (by show E + (k.val - E) = k.val; omega)

end Cert.RowLayers

end
-- ==== Proof.LibRowMaps.lean ====
/-
  Row maps over the extended reals: arrays whose every row is a function of the matching row of an operand.

  `mapRows f A` is the `[a, J]` array whose row `r` is `f` of row `r` of the `[a, K]` array `A`. An array is
  `mapRows f A` as soon as each of its rows is `f` of the matching row of `A` (`eq_mapRows`), whatever the number
  of rows — so one row fact serves a block of rows and the whole array; and `mapRows f A` read at an index whose row
  is `r` needs only a row that agrees with row `r` of `A` (`mapRows_apply_of_row`): that is all a row-tiled evaluation
  of a node-wise layer needs. Three row functions of layered networks are named: the projection of a row by a weight
  matrix, `j ↦ ∑ k, h k · w[k, j]`; the shifted rectifier, `j ↦ max (h j + b j) z`; and the logistic score,
  `j ↦ logistic ((∑ k, h k · w[k, j]) + b j)`. Equal operands give equal row maps (the `_congr` lemmas), and the one
  row of a vector viewed as a `[1, J]` array is the vector (`rowOf_vector_as_row`). Rows and the array operations
  read on a row are LibRowLayers.lean's.
-/
import proofs.«149258_j36344013259382_1_alg».proof.Proof.LibRowLayers

noncomputable section

namespace Cert.Layers

open Idealize.ShloMosaic Idealize.ShloMosaic.ValueIdx Cert.RowLayers

/-- The array whose row `r` is `f` of row `r` of `A`. -/
def mapRows {a K J : ℕ} (f : (Fin K → EReal) → Fin J → EReal) (A : (⟨2, ![a, K]⟩ : Shape).Idx → EReal) :
    (⟨2, ![a, J]⟩ : Shape).Idx → EReal :=
  fun i => f (rowOf A (i 0)) (i 1)

theorem mapRows_ix2 {a K J : ℕ} (f : (Fin K → EReal) → Fin J → EReal) (A : (⟨2, ![a, K]⟩ : Shape).Idx → EReal)
    (r : Fin a) (q : Fin J) : mapRows f A (ix2 r q) = f (rowOf A r) q := rfl

/-- An array each of whose rows is `f` of the matching row of `A` is `mapRows f A`. -/
theorem eq_mapRows {a K J : ℕ} (f : (Fin K → EReal) → Fin J → EReal) (A : (⟨2, ![a, K]⟩ : Shape).Idx → EReal)
    (X : (⟨2, ![a, J]⟩ : Shape).Idx → EReal) (h : ∀ p : Fin a, rowOf X p = f (rowOf A p)) : X = mapRows f A :=
  funext fun i => (apply_eq_rowOf X i).trans (congrFun (h (i 0)) (i 1))

/-- `mapRows f A` at an index whose row coordinate is `r` and whose column coordinate is `q`, given a row `h`
    that agrees with row `r` of `A`. -/
theorem mapRows_apply_of_row {a K J : ℕ} (f : (Fin K → EReal) → Fin J → EReal) (A : (⟨2, ![a, K]⟩ : Shape).Idx → EReal)
    (i : (⟨2, ![a, J]⟩ : Shape).Idx) (r : Fin a) (q : Fin J) (hi : i = ix2 r q) (h : Fin K → EReal)
    (hrow : ∀ k : Fin K, h k = A (ix2 r k)) : f h q = mapRows f A i := by
  subst hi
  rw [mapRows_ix2]
  exact congrArg (fun g => f g q) (funext hrow)

/-- The projection of a row by a weight matrix: `j ↦ ∑ k, h k · w[k, j]`. -/
def project {K J : ℕ} (w : (⟨2, ![K, J]⟩ : Shape).Idx → EReal) (h : Fin K → EReal) : Fin J → EReal :=
  fun j => ∑ k : Fin K, h k * w (ix2 k j)

/-- The shifted rectifier of a row: `j ↦ max (h j + b j) z`. -/
def shiftRelu {J : ℕ} (z : EReal) (b : Fin J → EReal) (h : Fin J → EReal) : Fin J → EReal :=
  relu z (fun j => h j + b j)

/-- The scoring head on a row: `j ↦ logistic ((∑ k, h k · w[k, j]) + b j)`. -/
def score {K J : ℕ} (w : (⟨2, ![K, J]⟩ : Shape).Idx → EReal) (b : Fin J → EReal) (h : Fin K → EReal) :
    Fin J → EReal :=
  fun j => Ideal.logistic (project w h j + b j)

/-! ## Equal operands give equal layers -/

theorem mapRows_project_congr {a K J : ℕ} {w w' : (⟨2, ![K, J]⟩ : Shape).Idx → EReal} {A A' : (⟨2, ![a, K]⟩ : Shape).Idx → EReal}
    (hw : w = w') (hA : A = A') : mapRows (project w) A = mapRows (project w') A' := by
  subst hw; subst hA; rfl

theorem mapRows_shiftRelu_congr {a J : ℕ} (z : EReal) {b b' : Fin J → EReal} {A A' : (⟨2, ![a, J]⟩ : Shape).Idx → EReal}
    (hb : b = b') (hA : A = A') : mapRows (shiftRelu z b) A = mapRows (shiftRelu z b') A' := by
  subst hb; subst hA; rfl

theorem mapRows_score_congr {a K J : ℕ} {w w' : (⟨2, ![K, J]⟩ : Shape).Idx → EReal} {b b' : Fin J → EReal}
    {A A' : (⟨2, ![a, K]⟩ : Shape).Idx → EReal} (hw : w = w') (hb : b = b') (hA : A = A') :
    mapRows (score w b) A = mapRows (score w' b') A' := by
  subst hw; subst hb; subst hA; rfl

/-- The one row of a vector viewed as a `[1, J]` array is the vector, entry by entry. -/
theorem rowOf_vector_as_row {J : ℕ} (x : (⟨1, ![J]⟩ : Shape).Idx → EReal) (h : (⟨1, ![J]⟩ : Shape).ShapeCasts ⟨2, ![1, J]⟩) :
    rowOf (a := 1) (b := J) (shapeCast ⟨2, ![1, J]⟩ x h) 0 = fun j => x (ix1 j) :=
  funext fun j => shapeCast_a_1a_apply x h 0 j

end Cert.Layers

end
-- ==== Proof.LibColumnBroadcast.lean ====
/-
  A column broadcast along the lanes, read at an index given by coordinates: an [a, 1] array broadcast to [a, b] reads, at
  (r, k), the operand's row r at its one column. (The keepdims form of a per-row scale: the row broadcast [1, b] → [a, b]
  and the unit-axis casts are the library's; this is their column counterpart, in the same style.)
-/
import Idealize.ShloMosaic.Lib.Pipeline.Value
import Idealize.ShloMosaic.Lib.ValueIdx

namespace Cert.ColumnBroadcast

open Idealize.ShloMosaic Idealize.ShloMosaic.ValueIdx

variable {α : Type}

/-- An `[a, 1]` array broadcast to `[a, b]` reads, at `(r, k)`, the operand at `(r, 0)`: on the row axis the
    coordinate is kept (and is `0` anyway when there is one row), on the unit axis it is `0`. -/
theorem broadcastTo_a1_ab_apply {a b : ℕ} (v : (⟨2, ![a, 1]⟩ : Shape).Idx → α) (h : (⟨2, ![a, 1]⟩ : Shape).Broadcasts ⟨2, ![a, b]⟩)
    (r : Fin a) (k : Fin b) : broadcastTo ⟨2, ![a, b]⟩ v h (ix2 r k) = v (ix2 r (0 : Fin 1)) := by
  refine broadcastTo_apply v h (ix2 r k) (ix2 r (0 : Fin 1)) fun ax => ?_
  match ax with
  | ⟨0, _⟩ =>
    show r.val = if a = 1 then 0 else r.val
    split
    · have := r.isLt; omega
    · rfl
  | ⟨1, _⟩ => rfl

end Cert.ColumnBroadcast
-- ==== Proof.LibChebRows.lean ====
/-
  Rows of a two-term Chebyshev graph layer and of a row-wise log-softmax, over the extended reals.

  A Chebyshev convolution of order two treats every node alone once the graph has been applied: node features `h` go
  through a first weight matrix, the features `t` propagated along the edges through a second one, and a bias is
  added — entry `j` of the node's new row is `(∑ k, h k · w₀[k, j]) + (∑ k, t k · w₁[k, j]) + b j` (`cheb`). The
  network's head sends a row `f` to `j ↦ (f j − M) − log (∑ k, exp (f k − M))`, `M` the row's largest entry
  (`logSoftmax`; `M` is a fold of `max` from a start value `z`, which both programs take to be −∞).
  This file names those row functions and reads, ROW BY ROW and for any number of rows, the array operations that
  compute them in the two forms a program may take: two matrix products into zero accumulators, a `[1, b]` bias row
  broadcast down the rows, lane reductions whose result is re-laid as a column and broadcast back (the device's);
  two `dot_general`s, a `[b]` bias given a unit axis and broadcast, host reductions broadcast back through a unit
  column (the host's). Both forms are the same row functions, which is all that joins the two programs.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«149258_j36344013259382_1_alg».proof.Proof.LibRowLayers
import proofs.«149258_j36344013259382_1_alg».proof.Proof.LibColumnBroadcast

noncomputable section

namespace Cert.ChebRows

open Idealize.ShloMosaic Idealize.ShloMosaic.ValueIdx Cert.RowLayers

/-! ## The row functions -/

/-- One Chebyshev layer of order two on a node: its own features `h` through `w0`, the propagated features `t`
    through `w1`, plus the bias. -/
def cheb {K J : ℕ} (h t : Fin K → EReal) (w0 w1 : (⟨2, ![K, J]⟩ : Shape).Idx → EReal) (b : Fin J → EReal) : Fin J → EReal :=
  fun j => ((∑ k : Fin K, h k * w0 (ix2 k j)) + (∑ k : Fin K, t k * w1 (ix2 k j))) + b j

/-- The largest entry of a row, taken as a fold of `max` from a start value `z`. -/
def rowMax {n : ℕ} (z : EReal) (f : Fin n → EReal) : EReal := (Finset.univ : Finset (Fin n)).fold max z f

/-- The start value is below the fold, so taking the maximum with it once more changes nothing. -/
theorem max_rowMax {n : ℕ} (z : EReal) (f : Fin n → EReal) : max z (rowMax z f) = rowMax z f :=
  max_eq_right ((Finset.le_fold_max z).mpr (Or.inl le_rfl))

/-- log-softmax of a row: the row shifted by its largest entry, minus the logarithm of the sum of the exponentials of
    the shifted row. -/
def logSoftmax {n : ℕ} (z : EReal) (f : Fin n → EReal) : Fin n → EReal :=
  fun j => (f j - rowMax z f) - Ideal.log (∑ k : Fin n, Ideal.exp (f k - rowMax z f))

/-! ## The Chebyshev layer as each program prints it -/

section Layer
variable {a K b : ℕ} {d : DotDims ⟨2, ![a, K]⟩ ⟨2, ![K, b]⟩ ⟨2, ![a, b]⟩} {φ₁ φ₂ : FTy}

/-- The device's layer — two products into zero accumulators, added, plus a `[1, b]` bias row broadcast down the
    rows — sends rows `p` of the two inputs to `cheb` of them. -/
theorem rowOf_cheb_device (H : RowsTimesCols d) (prec : Option ContractPrecision)
    (h t : FVec Ideal ⟨2, ![a, K]⟩ φ₁) (w0 w1 : FVec Ideal ⟨2, ![K, b]⟩ φ₂) (bias : FVec Ideal ⟨2, ![1, b]⟩ .f32)
    (hB : (⟨2, ![1, b]⟩ : Shape).Broadcasts ⟨2, ![a, b]⟩) (p : Fin a) :
    rowOf (addf (addf (matmul d prec h w0 (constant (F := Ideal) ⟨2, ![a, b]⟩ .f32 0x00000000#32))
                      (matmul d prec t w1 (constant (F := Ideal) ⟨2, ![a, b]⟩ .f32 0x00000000#32)))
                (broadcastTo ⟨2, ![a, b]⟩ bias hB)) p
      = cheb (rowOf h p) (rowOf t p) w0 w1 (rowOf bias 0) := by
  rw [rowOf_addf, rowOf_addf, rowOf_matmul_zero H, rowOf_matmul_zero H, rowOf_broadcastTo]
  rfl

/-- The host's layer — two `dot_general`s, added, plus a `[b]` bias given a unit leading axis and broadcast down the
    rows — sends rows `p` of the two inputs to `cheb` of them. -/
theorem rowOf_cheb_host (H : RowsTimesCols d) (prec : Option ContractPrecision)
    (h t : FVec Ideal ⟨2, ![a, K]⟩ φ₁) (w0 w1 : FVec Ideal ⟨2, ![K, b]⟩ φ₂) (bias : FVec Ideal ⟨1, ![b]⟩ .f32)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (addf (addf (Host.dotGeneral (F := Ideal) d prec h w0) (Host.dotGeneral (F := Ideal) d prec t w1))
                (broadcastInDim ⟨2, ![a, b]⟩ ![0, 1] h2 (broadcastInDim ⟨2, ![1, b]⟩ ![1] h1 bias))) p
      = cheb (rowOf h p) (rowOf t p) w0 w1 (fun j => bias (ix1 j)) := by
  rw [rowOf_addf, rowOf_addf, rowOf_dotGeneral H, rowOf_dotGeneral H, rowOf_broadcastInDim_vec]
  rfl

end Layer

/-! ## Reductions along the lanes, read on a row -/

section Reductions
variable {a n : ℕ} {φ : FTy}

/-- The reduced index `p` with lane `k` put back is `(p, k)`. -/
theorem lift_lane (h : (⟨2, ![a, n]⟩ : Shape).Reduces [1] (⟨1, ![a]⟩ : Shape)) (p : Fin a)
    (k : Fin ((⟨2, ![a, n]⟩ : Shape).size 1)) : h.lift (ix1 p) k = ix2 p (⟨k.val, k.isLt⟩ : Fin n) := by
  funext c; apply Fin.ext
  fin_cases c <;> rfl

/-- The device's maximum along the lanes, at row `p`: the fold of `max` over that row from the accumulator's value. -/
theorem multiReduction_max_row (src : FVec Ideal ⟨2, ![a, n]⟩ φ) (acc : BitVec φ.bits)
    (h : (⟨2, ![a, n]⟩ : Shape).Reduces [1] (⟨1, ![a]⟩ : Shape)) (hφ : FKind.Formats φ)
    (hacc : acc = FKind.maximumf.neutral φ hφ) (p : Fin a) :
    multiReduction .maximumf [1] ⟨1, ![a]⟩ src acc h hφ hacc (ix1 p) = rowMax (Ideal.ofBits φ acc) (rowOf src p) := by
  rw [Ideal.multiReduction_maximumf_single]
  have hf : (src ∘ h.lift (ix1 p)) = fun k : Fin n => src (ix2 p k) := funext fun k => congrArg src (lift_lane h p k)
  exact congrArg (fun f => Finset.fold max (Ideal.ofBits φ acc) f (Finset.univ : Finset (Fin n))) hf

/-- The device's sum along the lanes, at row `p`: the sum of that row. -/
theorem multiReduction_add_row (src : FVec Ideal ⟨2, ![a, n]⟩ φ) (acc : BitVec φ.bits)
    (h : (⟨2, ![a, n]⟩ : Shape).Reduces [1] (⟨1, ![a]⟩ : Shape)) (hφ : FKind.Formats φ)
    (hacc : acc = FKind.add.neutral φ hφ) (p : Fin a) :
    multiReduction .add [1] ⟨1, ![a]⟩ src acc h hφ hacc (ix1 p) = ∑ k : Fin n, src (ix2 p k) := by
  rw [Ideal.multiReduction_add_single]
  show (∑ k : Fin n, src (h.lift (ix1 p) k)) = _
  exact Finset.sum_congr rfl fun k _ => congrArg src (lift_lane h p k)

/-- The host's reduce with a maximum body along the lanes, at row `p`: the fold of `max` over that row from the initial value. -/
theorem hostReduce_max_row (x : FVec Ideal ⟨2, ![a, n]⟩ φ) (init : (⟨0, ![]⟩ : Shape).Idx → Ideal φ)
    (h' : (⟨2, ![a, n]⟩ : Shape).ReducesTo [1] (⟨1, ![a]⟩ : Shape)) (h : (⟨2, ![a, n]⟩ : Shape).Reduces [1] (⟨1, ![a]⟩ : Shape))
    (hu : 0 < (⟨0, ![]⟩ : Shape).numel) (p : Fin a) :
    Host.reduce FloatOps.maximumf x init h' hu (ix1 p) = rowMax (init (Shape.Idx.first hu)) (rowOf x p) := by
  rw [Host.reduce_eq_fold_single FloatOps.maximumf x init h' h hu]
  have hf : (x ∘ h.lift (ix1 p)) = fun k : Fin n => x (ix2 p k) := funext fun k => congrArg x (lift_lane h p k)
  exact congrArg (fun f => Finset.fold max (init (Shape.Idx.first hu)) f (Finset.univ : Finset (Fin n))) hf

/-- The host's float sum along the lanes, at row `p`: the initial value plus the sum of that row. -/
theorem hostReduceAdd_row (x : FVec Ideal ⟨2, ![a, n]⟩ φ) (init : (⟨0, ![]⟩ : Shape).Idx → Ideal φ)
    (h' : (⟨2, ![a, n]⟩ : Shape).ReducesTo [1] (⟨1, ![a]⟩ : Shape)) (h : (⟨2, ![a, n]⟩ : Shape).Reduces [1] (⟨1, ![a]⟩ : Shape))
    (hu : 0 < (⟨0, ![]⟩ : Shape).numel) (p : Fin a) :
    Host.reduceAdd x init h' hu (ix1 p) = init (Shape.Idx.first hu) + ∑ k : Fin n, x (ix2 p k) := by
  simp only [Host.reduceAdd, Ideal.hostReduceAdd_def]
  rw [Ideal.hostReduceAdd_single h' h]
  refine congrArg (_ + ·) ?_
  show (∑ k : Fin n, x (h.lift (ix1 p) k)) = _
  exact Finset.sum_congr rfl fun k _ => congrArg x (lift_lane h p k)

end Reductions

/-! ## A per-row value re-laid as a column and broadcast along the lanes -/

section Column
variable {α : Type} {a n : ℕ}

/-- An `[a]` array cast to `[a, 1]` reads, at `(i, u)`, the operand at `i`. -/
theorem shapeCast_a_a1_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The device's keep-dims form: an `[a]` array cast to a column and broadcast to `[a, n]` reads, at `(p, j)`, entry `p`. -/
theorem column_device_apply (v : (⟨1, ![a]⟩ : Shape).Idx → α) (hc : (⟨1, ![a]⟩ : Shape).ShapeCasts ⟨2, ![a, 1]⟩)
    (hb : (⟨2, ![a, 1]⟩ : Shape).Broadcasts ⟨2, ![a, n]⟩) (p : Fin a) (j : Fin n) :
    broadcastTo ⟨2, ![a, n]⟩ (shapeCast ⟨2, ![a, 1]⟩ v hc) hb (ix2 p j) = v (ix1 p) :=
  (Cert.ColumnBroadcast.broadcastTo_a1_ab_apply _ hb p j).trans (shapeCast_a_a1_apply v hc p 0)

/-- The host's first step: an `[a]` array given a trailing unit axis reads, at `(p, u)`, entry `p`. -/
theorem column_host_apply (v : (⟨1, ![a]⟩ : Shape).Idx → α) (h1 : (⟨1, ![a]⟩ : Shape).BroadcastsInDim ⟨2, ![a, 1]⟩ ![0])
    (p : Fin a) (u : Fin 1) : broadcastInDim ⟨2, ![a, 1]⟩ ![0] h1 v (ix2 p u) = v (ix1 p) :=
  broadcastInDim_apply ![0] h1 v (ix2 p u) (ix1 p) (fun ax => by
    match ax with
    | ⟨0, _⟩ =>
      show p.val = if a = 1 then 0 else p.val
      split
      · have := p.isLt; omega
      · rfl)

/-- The host's second step: an `[a, 1]` column broadcast to `[a, n]` reads, at `(p, j)`, the column at `(p, 0)`. -/
theorem lanes_host_apply (w : (⟨2, ![a, 1]⟩ : Shape).Idx → α) (h2 : (⟨2, ![a, 1]⟩ : Shape).BroadcastsInDim ⟨2, ![a, n]⟩ ![0, 1])
    (p : Fin a) (j : Fin n) : broadcastInDim ⟨2, ![a, n]⟩ ![0, 1] h2 w (ix2 p j) = w (ix2 p (0 : Fin 1)) :=
  broadcastInDim_apply ![0, 1] h2 w (ix2 p j) (ix2 p (0 : Fin 1)) (fun ax => by
    match ax with
    | ⟨0, _⟩ =>
      show p.val = if a = 1 then 0 else p.val
      split
      · have := p.isLt; omega
      · rfl
    | ⟨1, _⟩ => rfl)

end Column

/-! ## Arrays given row by row -/

section Arrays
variable {a K J : ℕ}

/-- Plane `o` of a stack of two `[K, J]` weight matrices. -/
def plane (W : (⟨3, ![2, K, J]⟩ : Shape).Idx → EReal) (o : Fin 2) : (⟨2, ![K, J]⟩ : Shape).Idx → EReal :=
  fun kj => W (ix3 o (kj 0) (kj 1))

theorem plane_apply (W : (⟨3, ![2, K, J]⟩ : Shape).Idx → EReal) (o : Fin 2) (k : Fin K) (j : Fin J) :
    plane W o (ix2 k j) = W (ix3 o k j) := rfl

/-- `cheb` reads its weight matrices at `(k, j)` only: matrices that agree there give the same row. -/
theorem cheb_congr (h t : Fin K → EReal) {w0 w1 w0' w1' : (⟨2, ![K, J]⟩ : Shape).Idx → EReal} (b : Fin J → EReal)
    (e0 : ∀ (k : Fin K) (j : Fin J), w0 (ix2 k j) = w0' (ix2 k j)) (e1 : ∀ (k : Fin K) (j : Fin J), w1 (ix2 k j) = w1' (ix2 k j)) :
    cheb h t w0 w1 b = cheb h t w0' w1' b := by
  funext j
  unfold cheb
  simp only [e0, e1]

/-- The hidden layer of every node: the rectified Chebyshev layer of the node's rows of `x` and of the propagated `tx`. -/
def chebReluArr (z : EReal) (x tx : (⟨2, ![a, K]⟩ : Shape).Idx → EReal) (w0 w1 : (⟨2, ![K, J]⟩ : Shape).Idx → EReal)
    (b : Fin J → EReal) : (⟨2, ![a, J]⟩ : Shape).Idx → EReal :=
  fun i => relu z (cheb (rowOf x (i 0)) (rowOf tx (i 0)) w0 w1 b) (i 1)

/-- The output layer of every node: the log-softmax of the Chebyshev layer of the node's rows. -/
def chebLogSoftmaxArr (z : EReal) (x tx : (⟨2, ![a, K]⟩ : Shape).Idx → EReal) (w0 w1 : (⟨2, ![K, J]⟩ : Shape).Idx → EReal)
    (b : Fin J → EReal) : (⟨2, ![a, J]⟩ : Shape).Idx → EReal :=
  fun i => logSoftmax z (cheb (rowOf x (i 0)) (rowOf tx (i 0)) w0 w1 b) (i 1)

theorem chebReluArr_ix2 (z : EReal) (x tx : (⟨2, ![a, K]⟩ : Shape).Idx → EReal) (w0 w1 : (⟨2, ![K, J]⟩ : Shape).Idx → EReal)
    (b : Fin J → EReal) (p : Fin a) (q : Fin J) :
    chebReluArr z x tx w0 w1 b (ix2 p q) = relu z (cheb (rowOf x p) (rowOf tx p) w0 w1 b) q := rfl

theorem chebLogSoftmaxArr_ix2 (z : EReal) (x tx : (⟨2, ![a, K]⟩ : Shape).Idx → EReal) (w0 w1 : (⟨2, ![K, J]⟩ : Shape).Idx → EReal)
    (b : Fin J → EReal) (p : Fin a) (q : Fin J) :
    chebLogSoftmaxArr z x tx w0 w1 b (ix2 p q) = logSoftmax z (cheb (rowOf x p) (rowOf tx p) w0 w1 b) q := rfl

/-- An array whose every row is the rectified layer of the inputs' rows IS the hidden-layer array. -/
theorem eq_chebReluArr_of_rows (z : EReal) (x tx : (⟨2, ![a, K]⟩ : Shape).Idx → EReal) (w0 w1 : (⟨2, ![K, J]⟩ : Shape).Idx → EReal)
    (b : Fin J → EReal) (A : (⟨2, ![a, J]⟩ : Shape).Idx → EReal)
    (hA : ∀ p : Fin a, rowOf A p = relu z (cheb (rowOf x p) (rowOf tx p) w0 w1 b)) : A = chebReluArr z x tx w0 w1 b :=
  funext fun i => (apply_eq_rowOf A i).trans (congrFun (hA (i 0)) (i 1))

/-- An array whose every entry is the log-softmax of the layer of the inputs' rows IS the output-layer array. -/
theorem eq_chebLogSoftmaxArr_of_entries (z : EReal) (x tx : (⟨2, ![a, K]⟩ : Shape).Idx → EReal) (w0 w1 : (⟨2, ![K, J]⟩ : Shape).Idx → EReal)
    (b : Fin J → EReal) (A : (⟨2, ![a, J]⟩ : Shape).Idx → EReal)
    (hA : ∀ (p : Fin a) (q : Fin J), A (ix2 p q) = logSoftmax z (cheb (rowOf x p) (rowOf tx p) w0 w1 b) q) :
    A = chebLogSoftmaxArr z x tx w0 w1 b :=
  funext fun i => (congrArg A (eq_ix2 i)).trans (hA (i 0) (i 1))

end Arrays

end Cert.ChebRows

end
-- ==== Proof.LibLogSoftmaxRows.lean ====
/-
  A row-wise log-softmax as each program prints it, read at an entry.

  Both programs shift an `[a, n]` array of logits by its row maxima, exponentiate, sum each row, take the logarithm and
  subtract: entry `(p, j)` of the result is `logSoftmax` of row `p` at `j`. The device reduces along the lanes from an
  accumulator, re-lays the `[a]` result as an `[a, 1]` column and broadcasts it back; the host reduces from an initial
  value, takes the maximum with a splat of that same value once more (which changes nothing: the fold already starts
  there), gives the result a trailing unit axis and broadcasts it back; its sum starts from the zero word, which is the
  extended real `0`. The shifted array and the two per-row terms are named once (`logSoftmax_of_parts`), and each
  program's spelling of them is read into that form.
-/
import proofs.«149258_j36344013259382_1_alg».proof.Proof.LibChebRows

noncomputable section

namespace Cert.ChebRows

open Idealize.ShloMosaic Idealize.ShloMosaic.ValueIdx Cert.RowLayers

variable {a n : ℕ}

/-- If `Mx` holds, all along row `q`, that row's maximum of `L`, and `Sx` the logarithm of the row's sum of
    exponentials of the shifted entries, then `(L − Mx) − Sx` is the log-softmax of `L`'s rows. -/
theorem logSoftmax_of_parts (z : EReal) (L Mx Sx : FVec Ideal ⟨2, ![a, n]⟩ .f32)
    (hMx : ∀ (q : Fin a) (k : Fin n), Mx (ix2 q k) = rowMax z (rowOf L q))
    (hSx : ∀ (q : Fin a) (k : Fin n), Sx (ix2 q k) = Ideal.log (∑ k' : Fin n, Ideal.exp (L (ix2 q k') - rowMax z (rowOf L q))))
    (p : Fin a) (j : Fin n) : subf (subf L Mx) Sx (ix2 p j) = logSoftmax z (rowOf L p) j := by
  show (L (ix2 p j) - Mx (ix2 p j)) - Sx (ix2 p j) = _
  rw [hMx, hSx]
  rfl

/-- The device's spelling. -/
theorem logSoftmax_device_apply (L : FVec Ideal ⟨2, ![a, n]⟩ .f32) (accM acc0 : BitVec 32)
    (hr : (⟨2, ![a, n]⟩ : Shape).Reduces [1] (⟨1, ![a]⟩ : Shape)) (hφ : FKind.Formats .f32)
    (hM : accM = FKind.maximumf.neutral .f32 hφ) (h0 : acc0 = FKind.add.neutral .f32 hφ)
    (hc : (⟨1, ![a]⟩ : Shape).ShapeCasts ⟨2, ![a, 1]⟩) (hb : (⟨2, ![a, 1]⟩ : Shape).Broadcasts ⟨2, ![a, n]⟩)
    (p : Fin a) (j : Fin n) :
    subf (subf L (broadcastTo ⟨2, ![a, n]⟩ (shapeCast ⟨2, ![a, 1]⟩ (multiReduction .maximumf [1] ⟨1, ![a]⟩ L accM hr hφ hM) hc) hb))
         (broadcastTo ⟨2, ![a, n]⟩ (log (shapeCast ⟨2, ![a, 1]⟩ (multiReduction .add [1] ⟨1, ![a]⟩
             (exp (subf L (broadcastTo ⟨2, ![a, n]⟩ (shapeCast ⟨2, ![a, 1]⟩ (multiReduction .maximumf [1] ⟨1, ![a]⟩ L accM hr hφ hM) hc) hb)))
             acc0 hr hφ h0) hc)) hb) (ix2 p j)
      = logSoftmax (Ideal.ofBits .f32 accM) (rowOf L p) j := by
  have hMx : ∀ (q : Fin a) (k : Fin n),
      broadcastTo ⟨2, ![a, n]⟩ (shapeCast ⟨2, ![a, 1]⟩ (multiReduction .maximumf [1] ⟨1, ![a]⟩ L accM hr hφ hM) hc) hb (ix2 q k)
        = rowMax (Ideal.ofBits .f32 accM) (rowOf L q) := fun q k =>
    (column_device_apply _ hc hb q k).trans (multiReduction_max_row L accM hr hφ hM q)
  refine logSoftmax_of_parts _ L _ _ hMx (fun q k => ?_) p j
  refine (Cert.ColumnBroadcast.broadcastTo_a1_ab_apply _ hb q k).trans ?_
  show Ideal.log (shapeCast ⟨2, ![a, 1]⟩ _ hc (ix2 q (0 : Fin 1))) = _
  rw [shapeCast_a_a1_apply, multiReduction_add_row]
  refine congrArg Ideal.log (Finset.sum_congr rfl fun k' _ => ?_)
  show Ideal.exp (L (ix2 q k') - _) = _
  rw [hMx]

/-- The host's spelling. -/
theorem logSoftmax_host_apply (L : FVec Ideal ⟨2, ![a, n]⟩ .f32) (wM : BitVec 32)
    (h' : (⟨2, ![a, n]⟩ : Shape).ReducesTo [1] (⟨1, ![a]⟩ : Shape)) (hr : (⟨2, ![a, n]⟩ : Shape).Reduces [1] (⟨1, ![a]⟩ : Shape))
    (hu : 0 < (⟨0, ![]⟩ : Shape).numel)
    (hs : (⟨0, ![]⟩ : Shape).BroadcastsInDim ⟨1, ![a]⟩ (![] : Fin 0 → Fin 1))
    (h1 : (⟨1, ![a]⟩ : Shape).BroadcastsInDim ⟨2, ![a, 1]⟩ ![0]) (h2 : (⟨2, ![a, 1]⟩ : Shape).BroadcastsInDim ⟨2, ![a, n]⟩ ![0, 1])
    (p : Fin a) (j : Fin n) :
    subf (subf L (broadcastInDim ⟨2, ![a, n]⟩ ![0, 1] h2 (broadcastInDim ⟨2, ![a, 1]⟩ ![0] h1
            (maximumf (broadcastInDim ⟨1, ![a]⟩ ![] hs (constant (F := Ideal) ⟨0, ![]⟩ .f32 wM))
              (Host.reduce FloatOps.maximumf L (constant (F := Ideal) ⟨0, ![]⟩ .f32 wM) h' hu)))))
         (broadcastInDim ⟨2, ![a, n]⟩ ![0, 1] h2 (Host.log (broadcastInDim ⟨2, ![a, 1]⟩ ![0] h1
            (Host.reduceAdd (Host.exp (subf L (broadcastInDim ⟨2, ![a, n]⟩ ![0, 1] h2 (broadcastInDim ⟨2, ![a, 1]⟩ ![0] h1
                (maximumf (broadcastInDim ⟨1, ![a]⟩ ![] hs (constant (F := Ideal) ⟨0, ![]⟩ .f32 wM))
                  (Host.reduce FloatOps.maximumf L (constant (F := Ideal) ⟨0, ![]⟩ .f32 wM) h' hu))))))
              (constant (F := Ideal) ⟨0, ![]⟩ .f32 0x00000000#32) h' hu)))) (ix2 p j)
      = logSoftmax (Ideal.ofBits .f32 wM) (rowOf L p) j := by
  have hMx : ∀ (q : Fin a) (k : Fin n),
      broadcastInDim ⟨2, ![a, n]⟩ ![0, 1] h2 (broadcastInDim ⟨2, ![a, 1]⟩ ![0] h1
            (maximumf (broadcastInDim ⟨1, ![a]⟩ ![] hs (constant (F := Ideal) ⟨0, ![]⟩ .f32 wM))
              (Host.reduce FloatOps.maximumf L (constant (F := Ideal) ⟨0, ![]⟩ .f32 wM) h' hu))) (ix2 q k)
        = rowMax (Ideal.ofBits .f32 wM) (rowOf L q) := fun q k => by
    rw [lanes_host_apply, column_host_apply]
    show max (broadcastInDim ⟨1, ![a]⟩ ![] hs (constant (F := Ideal) ⟨0, ![]⟩ .f32 wM) (ix1 q))
        (Host.reduce FloatOps.maximumf L (constant (F := Ideal) ⟨0, ![]⟩ .f32 wM) h' hu (ix1 q)) = _
    rw [hostReduce_max_row L _ h' hr hu q,
      broadcastInDim_apply ![] hs (constant (F := Ideal) ⟨0, ![]⟩ .f32 wM) (ix1 q) ix0 (fun ax => ax.elim0)]
    exact max_rowMax _ _
  refine logSoftmax_of_parts _ L _ _ hMx (fun q k => ?_) p j
  rw [lanes_host_apply]
  refine (congrArg Ideal.log (column_host_apply _ h1 q (0 : Fin 1))).trans ?_
  rw [hostReduceAdd_row _ _ h' hr hu q]
  show Ideal.log (Ideal.ofBits .f32 0x00000000#32 + _) = _
  rw [Ideal.ofBits_zero_f32, zero_add]
  refine congrArg Ideal.log (Finset.sum_congr rfl fun k' _ => ?_)
  show Ideal.exp (L (ix2 q k') - _) = _
  rw [hMx]

end Cert.ChebRows

end
-- ==== Proof.LibSageRows.lean ====
/-
  The mean-aggregator graph layer on one node, over the extended reals, and the two ways a program may spell it.

  The layer sends the row `h` aggregated from a node's neighbours and the node's own row `t` to
  `j ↦ ((∑ k, h k · wl[k, j]) + b j) + ∑ k, t k · wr[k, j]` (`sage`). A host program computes exactly that: two
  matrix products, the bias added between them. A device program may instead set the two rows side by side, stack
  the two weight matrices on top of each other, and take ONE dense layer of the joined row. The sum over the joined
  index set splits into the two sums, and the bias moves past the second sum by commutativity and associativity of
  `+` alone — laws that hold on every extended real, so no finiteness is used (`dense_join`, `dense_concat`).
  Read here as well: a concatenation along the rows at an index of its upper and of its lower part; the host's
  spelling of the layer on a row (`rowOf_sage_host`); the device's rectified dense block and its dense block
  followed by a row-wise log-softmax, each as a row map of its input block (`device_hidden`, `device_out`), for
  blocks of any number of rows.
-/
import proofs.«149258_j36344013259382_1_alg».proof.Proof.LibRowLayers
import proofs.«149258_j36344013259382_1_alg».proof.Proof.LibRowExtras
import proofs.«149258_j36344013259382_1_alg».proof.Proof.LibRowMaps
import proofs.«149258_j36344013259382_1_alg».proof.Proof.LibChebRows
import proofs.«149258_j36344013259382_1_alg».proof.Proof.LibLogSoftmaxRows

noncomputable section

namespace Cert.SageRows

open Idealize.ShloMosaic Idealize.ShloMosaic.ValueIdx Cert.RowLayers Cert.ChebRows Cert.Layers

/-! ## The layer on one node -/

/-- The mean-aggregator layer on a node: the aggregated row `h` through `wl`, plus the bias, plus the node's own row
    `t` through `wr`. -/
def sage {A B J : ℕ} (h : Fin A → EReal) (t : Fin B → EReal) (wl : (⟨2, ![A, J]⟩ : Shape).Idx → EReal)
    (wr : (⟨2, ![B, J]⟩ : Shape).Idx → EReal) (b : Fin J → EReal) : Fin J → EReal :=
  fun j => ((∑ k : Fin A, h k * wl (ix2 k j)) + b j) + ∑ k : Fin B, t k * wr (ix2 k j)

/-- A joined row read in its first part. -/
theorem join_castAdd {α : Type} {A B : ℕ} (f : Fin A → α) (g : Fin B → α) (k : Fin A) :
    join (rfl : A + B = A + B) f g (Fin.castAdd B k) = f k := by
  unfold join
  rw [dif_pos (show (Fin.castAdd B k).val < A from k.isLt)]
  rfl

/-- A joined row read in its second part. -/
theorem join_natAdd {α : Type} {A B : ℕ} (f : Fin A → α) (g : Fin B → α) (k : Fin B) :
    join (rfl : A + B = A + B) f g (Fin.natAdd A k) = g k := by
  have hv : (Fin.natAdd A k).val = A + k.val := Fin.coe_natAdd A k
  unfold join
  rw [dif_neg (show ¬ (Fin.natAdd A k).val < A from by rw [hv]; omega)]
  exact congrArg g (Fin.ext (by show (Fin.natAdd A k).val - A = k.val; rw [hv]; omega))

/-- ONE dense layer of two rows set side by side, through a weight matrix whose first `A` rows are `w1` and whose
    next `B` rows are `w2`, is the mean-aggregator layer of the two rows: the sum over `A + B` positions is the sum
    over the first `A` plus the sum over the last `B`, and `(s₁ + s₂) + b = (s₁ + b) + s₂` in any commutative monoid. -/
theorem dense_join {A B C J : ℕ} (hC : C = A + B) (f : Fin A → EReal) (g : Fin B → EReal)
    (wc : (⟨2, ![C, J]⟩ : Shape).Idx → EReal) (w1 : (⟨2, ![A, J]⟩ : Shape).Idx → EReal)
    (w2 : (⟨2, ![B, J]⟩ : Shape).Idx → EReal) (b : Fin J → EReal)
    (h1 : ∀ (k : Fin A) (j : Fin J), wc (ix2 (⟨k.val, by have := k.isLt; omega⟩ : Fin C) j) = w1 (ix2 k j))
    (h2 : ∀ (k : Fin B) (j : Fin J), wc (ix2 (⟨A + k.val, by have := k.isLt; omega⟩ : Fin C) j) = w2 (ix2 k j)) :
    dense (join hC f g) wc b = sage f g w1 w2 b := by
  subst hC
  funext j
  unfold dense sage
  rw [Fin.sum_univ_add]
  have e1 : ∀ k : Fin A, join rfl f g (Fin.castAdd B k) * wc (ix2 (Fin.castAdd B k) j) = f k * w1 (ix2 k j) := fun k => by
    rw [join_castAdd]; exact congrArg (f k * ·) (h1 k j)
  have e2 : ∀ k : Fin B, join rfl f g (Fin.natAdd A k) * wc (ix2 (Fin.natAdd A k) j) = g k * w2 (ix2 k j) := fun k => by
    rw [join_natAdd]; exact congrArg (g k * ·) (h2 k j)
  rw [Finset.sum_congr rfl (fun k _ => e1 k), Finset.sum_congr rfl (fun k _ => e2 k)]
  exact add_right_comm _ _ _

/-! ## A concatenation along the rows, read at an index -/

section ConcatRows
variable {α : Type} {A B C J : ℕ}

/-- Two arrays stacked along the rows, read in the upper part. -/
theorem concat_rows_top (x : (⟨2, ![A, J]⟩ : Shape).Idx → α) (y : (⟨2, ![B, J]⟩ : Shape).Idx → α)
    (h : Shape.Concatenates [(⟨2, ![A, J]⟩ : Shape), ⟨2, ![B, J]⟩] ⟨2, ![C, J]⟩ 0) (k : Fin A) (hk : k.val < C) (j : Fin J) :
    concatenate ⟨2, ![C, J]⟩ 0 [⟨⟨2, ![A, J]⟩, x⟩, ⟨⟨2, ![B, J]⟩, y⟩] h (ix2 (⟨k.val, hk⟩ : Fin C) j) = x (ix2 k j) :=
  concatenate_pair_apply_left 0 x y h (ix2 (⟨k.val, hk⟩ : Fin C) j) rfl (ix2 k j) (fun ax => by
    match ax with
    | ⟨0, _⟩ => rfl
    | ⟨1, _⟩ => rfl)

/-- Two arrays stacked along the rows, read in the lower part. -/
theorem concat_rows_bottom (x : (⟨2, ![A, J]⟩ : Shape).Idx → α) (y : (⟨2, ![B, J]⟩ : Shape).Idx → α)
    (h : Shape.Concatenates [(⟨2, ![A, J]⟩ : Shape), ⟨2, ![B, J]⟩] ⟨2, ![C, J]⟩ 0) (k : Fin B) (hk : A + k.val < C) (j : Fin J) :
    concatenate ⟨2, ![C, J]⟩ 0 [⟨⟨2, ![A, J]⟩, x⟩, ⟨⟨2, ![B, J]⟩, y⟩] h (ix2 (⟨A + k.val, hk⟩ : Fin C) j) = y (ix2 k j) :=
  concatenate_pair_apply_right 0 x y h (ix2 (⟨A + k.val, hk⟩ : Fin C) j) rfl rfl (ix2 k j)
    (fun ax hne => by
      match ax with
      | ⟨0, _⟩ => exact absurd rfl hne
      | ⟨1, _⟩ => rfl)
    (by show k.val + A = A + k.val; omega)

end ConcatRows

/-- The dense layer of a row of `[agg | xs]` through `[w1 ; w2]` is the mean-aggregator layer of the two rows. -/
theorem dense_concat {a A B C J : ℕ} (agg : (⟨2, ![a, A]⟩ : Shape).Idx → EReal) (xs : (⟨2, ![a, B]⟩ : Shape).Idx → EReal)
    (w1 : (⟨2, ![A, J]⟩ : Shape).Idx → EReal) (w2 : (⟨2, ![B, J]⟩ : Shape).Idx → EReal)
    (hcols : Shape.Concatenates [(⟨2, ![a, A]⟩ : Shape), ⟨2, ![a, B]⟩] ⟨2, ![a, C]⟩ 1)
    (hrows : Shape.Concatenates [(⟨2, ![A, J]⟩ : Shape), ⟨2, ![B, J]⟩] ⟨2, ![C, J]⟩ 0) (hC : C = A + B)
    (b : Fin J → EReal) (p : Fin a) :
    dense (rowOf (concatenate ⟨2, ![a, C]⟩ 1 [⟨⟨2, ![a, A]⟩, agg⟩, ⟨⟨2, ![a, B]⟩, xs⟩] hcols) p)
        (concatenate ⟨2, ![C, J]⟩ 0 [⟨⟨2, ![A, J]⟩, w1⟩, ⟨⟨2, ![B, J]⟩, w2⟩] hrows) b
      = sage (rowOf agg p) (rowOf xs p) w1 w2 b := by
  rw [rowOf_concat_cols agg xs hcols hC p]
  exact dense_join hC _ _ _ w1 w2 b (fun k j => concat_rows_top w1 w2 hrows k _ j) (fun k j => concat_rows_bottom w1 w2 hrows k _ j)

/-! ## The host's spelling, on a row -/

/-- Two `dot_general`s with the bias vector (given a unit leading axis and broadcast down the rows) added between
    them: row `p` of the result is the mean-aggregator layer of rows `p` of the two inputs. -/
theorem rowOf_sage_host {a A B J : ℕ} {d1 : DotDims ⟨2, ![a, A]⟩ ⟨2, ![A, J]⟩ ⟨2, ![a, J]⟩}
    {d2 : DotDims ⟨2, ![a, B]⟩ ⟨2, ![B, J]⟩ ⟨2, ![a, J]⟩} (H1 : RowsTimesCols d1) (H2 : RowsTimesCols d2)
    (prec1 prec2 : Option ContractPrecision)
    (agg : FVec Ideal ⟨2, ![a, A]⟩ .f32) (xs : FVec Ideal ⟨2, ![a, B]⟩ .f32)
    (w1 : FVec Ideal ⟨2, ![A, J]⟩ .f32) (w2 : FVec Ideal ⟨2, ![B, J]⟩ .f32) (bias : FVec Ideal ⟨1, ![J]⟩ .f32)
    (h1 : (⟨1, ![J]⟩ : Shape).BroadcastsInDim ⟨2, ![1, J]⟩ ![1]) (h2 : (⟨2, ![1, J]⟩ : Shape).BroadcastsInDim ⟨2, ![a, J]⟩ ![0, 1])
    (p : Fin a) :
    rowOf (addf (addf (Host.dotGeneral (F := Ideal) d1 prec1 agg w1)
                      (broadcastInDim ⟨2, ![a, J]⟩ ![0, 1] h2 (broadcastInDim ⟨2, ![1, J]⟩ ![1] h1 bias)))
                (Host.dotGeneral (F := Ideal) d2 prec2 xs w2)) p
      = sage (rowOf agg p) (rowOf xs p) w1 w2 (vec bias) := by
  rw [rowOf_addf, rowOf_dense_host H1, rowOf_dotGeneral H2]
  rfl

/-! ## The device's blocks as row maps -/

/-- The hidden layer's row function: the rectified dense layer of a row. -/
def hiddenRow {K J : ℕ} (z : EReal) (w : (⟨2, ![K, J]⟩ : Shape).Idx → EReal) (b : Fin J → EReal) (h : Fin K → EReal) :
    Fin J → EReal := relu z (dense h w b)

/-- The output layer's row function: the log-softmax of the dense layer of a row. -/
def outRow {K J : ℕ} (z : EReal) (w : (⟨2, ![K, J]⟩ : Shape).Idx → EReal) (b : Fin J → EReal) (h : Fin K → EReal) :
    Fin J → EReal := logSoftmax z (dense h w b)

section Device
variable {a K J : ℕ} {d : DotDims ⟨2, ![a, K]⟩ ⟨2, ![K, J]⟩ ⟨2, ![a, J]⟩}

/-- The device's hidden block — a product of the operands (their change of float format is the identity) into a zero
    accumulator, plus the bias row broadcast down the rows, maximum with a splat scalar — is the row map `hiddenRow`
    of its input block. -/
theorem device_hidden (H : RowsTimesCols d) (x : FVec Ideal ⟨2, ![a, K]⟩ .f32) (w : FVec Ideal ⟨2, ![K, J]⟩ .f32)
    (bias : FVec Ideal ⟨2, ![1, J]⟩ .f32) (hx : FTy.bf16.bits < FTy.f32.bits)
    (hB : (⟨2, ![1, J]⟩ : Shape).Broadcasts ⟨2, ![a, J]⟩) (z : Ideal .f32) :
    maximumf (addf (matmul d none (truncf .bf16 x hx) (truncf .bf16 w hx) (constant (F := Ideal) ⟨2, ![a, J]⟩ .f32 0x00000000#32))
                   (broadcastTo ⟨2, ![a, J]⟩ bias hB))
             (broadcast ⟨2, ![a, J]⟩ z)
      = mapRows (hiddenRow z w (rowOf bias 0)) x := by
  refine eq_mapRows _ x _ fun p => ?_
  rw [rowOf_maximumf_splat, rowOf_dense_device H]
  rfl

/-- The device's output block — the same dense block, then the row-wise log-softmax in the device's spelling (lane
    maximum from an accumulator, shift, exponential, lane sum, logarithm, subtraction) — is the row map `outRow` of its
    input block. -/
theorem device_out (H : RowsTimesCols d) (x : FVec Ideal ⟨2, ![a, K]⟩ .f32) (w : FVec Ideal ⟨2, ![K, J]⟩ .f32)
    (bias : FVec Ideal ⟨2, ![1, J]⟩ .f32) (hx : FTy.bf16.bits < FTy.f32.bits)
    (hB : (⟨2, ![1, J]⟩ : Shape).Broadcasts ⟨2, ![a, J]⟩) (L : FVec Ideal ⟨2, ![a, J]⟩ .f32)
    (hL : L = addf (matmul d none (truncf .bf16 x hx) (truncf .bf16 w hx) (constant (F := Ideal) ⟨2, ![a, J]⟩ .f32 0x00000000#32))
                   (broadcastTo ⟨2, ![a, J]⟩ bias hB))
    (accM acc0 : BitVec 32)
    (hr : (⟨2, ![a, J]⟩ : Shape).Reduces [1] (⟨1, ![a]⟩ : Shape)) (hφ : FKind.Formats .f32)
    (hM : accM = FKind.maximumf.neutral .f32 hφ) (h0 : acc0 = FKind.add.neutral .f32 hφ)
    (hc : (⟨1, ![a]⟩ : Shape).ShapeCasts ⟨2, ![a, 1]⟩) (hb : (⟨2, ![a, 1]⟩ : Shape).Broadcasts ⟨2, ![a, J]⟩) :
    subf (subf L (broadcastTo ⟨2, ![a, J]⟩ (shapeCast ⟨2, ![a, 1]⟩ (multiReduction .maximumf [1] ⟨1, ![a]⟩ L accM hr hφ hM) hc) hb))
         (broadcastTo ⟨2, ![a, J]⟩ (log (shapeCast ⟨2, ![a, 1]⟩ (multiReduction .add [1] ⟨1, ![a]⟩
             (exp (subf L (broadcastTo ⟨2, ![a, J]⟩ (shapeCast ⟨2, ![a, 1]⟩ (multiReduction .maximumf [1] ⟨1, ![a]⟩ L accM hr hφ hM) hc) hb)))
             acc0 hr hφ h0) hc)) hb)
      = mapRows (outRow (Ideal.ofBits .f32 accM) w (rowOf bias 0)) x := by
  funext i
  obtain ⟨p, q, rfl⟩ : ∃ (p : Fin a) (q : Fin J), i = ix2 p q := ⟨i 0, i 1, eq_ix2 i⟩
  refine (logSoftmax_device_apply L accM acc0 hr hφ hM h0 hc hb p q).trans ?_
  rw [mapRows_ix2, hL, rowOf_dense_device H]
  rfl

end Device

end Cert.SageRows

end
-- ==== Proof.KernelBody.lean ====
/-
  What one grid point of each of the two device regions computes, as a row map of its input block.

  Both regions run the same body on a block of 4096 rows: the block and the weight matrix are rounded to bf16 (the
  identity on extended reals), multiplied into a zero accumulator, and the bias row is added down the rows. The first
  region then takes the maximum with 0: every row `h` of the block goes to `max ((∑ k, h k · w[k, ·]) + b) 0`. The second
  region takes the row-wise log-softmax instead: lane maximum from −∞, shift, exponential, lane sum from 0, logarithm,
  subtraction. So each payload is `mapRows` of a row function of the block, the weights and the bias row.
-/
import proofs.«149258_j36344013259382_1_alg».proof.Proof.Gen.KernelIdeal.Skeleton
import proofs.«149258_j36344013259382_1_alg».proof.Proof.LibSageRows

noncomputable section

namespace Cert.KernelIdeal.Hand

open Idealize.ShloMosaic Idealize.ShloMosaic.ValueIdx Cert.KernelIdeal Cert.KernelIdeal.Gen
open Cert.RowLayers Cert.ChebRows Cert.Layers Cert.SageRows
/-- The dimension numbers of `dot_S4096x256_S256x256_S4096x256_1_0_0_1_n_n` contract the left operand's columns against the right operand's rows. -/
theorem rtc0 : RowsTimesCols (a := 4096) (K := 256) (b := 256) dot_S4096x256_S256x256_S4096x256_1_0_0_1_n_n where
  rank := rfl
  size := rfl
  lhs0 := fun j q => by
    unfold DotDims.lhsIdx
    rw [dif_neg (show ¬(0 : Fin S4096x256.rank) ∈ dot_S4096x256_S256x256_S4096x256_1_0_0_1_n_n.lhsBatch by decide), dif_pos (show (0 : Fin S4096x256.rank) ∈ dot_S4096x256_S256x256_S4096x256_1_0_0_1_n_n.lhsNonContracting by decide)]
    rfl
  lhs1 := fun j q => dot_S4096x256_S256x256_S4096x256_1_0_0_1_n_n.lhsIdx_val_of_single rfl j q
  rhs0 := fun j q => dot_S4096x256_S256x256_S4096x256_1_0_0_1_n_n.rhsIdx_val_of_single rfl j q
  rhs1 := fun j q => by
    unfold DotDims.rhsIdx
    rw [dif_neg (show ¬(1 : Fin S256x256.rank) ∈ dot_S4096x256_S256x256_S4096x256_1_0_0_1_n_n.rhsBatch by decide), dif_pos (show (1 : Fin S256x256.rank) ∈ dot_S4096x256_S256x256_S4096x256_1_0_0_1_n_n.rhsNonContracting by decide)]
    rfl

/-- The dimension numbers of `dot_S4096x512_S512x64_S4096x64_1_0_0_1_n_n` contract the left operand's columns against the right operand's rows. -/
theorem rtc1 : RowsTimesCols (a := 4096) (K := 512) (b := 64) dot_S4096x512_S512x64_S4096x64_1_0_0_1_n_n where
  rank := rfl
  size := rfl
  lhs0 := fun j q => by
    unfold DotDims.lhsIdx
    rw [dif_neg (show ¬(0 : Fin S4096x512.rank) ∈ dot_S4096x512_S512x64_S4096x64_1_0_0_1_n_n.lhsBatch by decide), dif_pos (show (0 : Fin S4096x512.rank) ∈ dot_S4096x512_S512x64_S4096x64_1_0_0_1_n_n.lhsNonContracting by decide)]
    rfl
  lhs1 := fun j q => dot_S4096x512_S512x64_S4096x64_1_0_0_1_n_n.lhsIdx_val_of_single rfl j q
  rhs0 := fun j q => dot_S4096x512_S512x64_S4096x64_1_0_0_1_n_n.rhsIdx_val_of_single rfl j q
  rhs1 := fun j q => by
    unfold DotDims.rhsIdx
    rw [dif_neg (show ¬(1 : Fin S512x64.rank) ∈ dot_S4096x512_S512x64_S4096x64_1_0_0_1_n_n.rhsBatch by decide), dif_pos (show (1 : Fin S512x64.rank) ∈ dot_S4096x512_S512x64_S4096x64_1_0_0_1_n_n.rhsNonContracting by decide)]
    rfl

/-- The threshold of the first region's rectifier: the splat scalar 0. -/
abbrev z0 : EReal := Scalar.ofBits (F := Ideal) .f32 0x00000000#32

/-- The start value of the second region's lane maximum: −∞. -/
abbrev zM : EReal := Ideal.ofBits .f32 0xFF800000#32

/-- The first region's payload: every row of the block through the rectified dense layer. -/
theorem pay0_eq (x0 : Vec Ideal S4096x256 .f32) (x1 : Vec Ideal S256x256 .f32) (x2 : Vec Ideal S1x256 .f32) :
    k0_pay1 (F := Ideal) x0 x1 x2
      = mapRows (a := 4096) (K := 256) (J := 256) (hiddenRow z0 x1 (rowOf (a := 1) (b := 256) x2 0)) x0 := by
  unfold k0_pay1
  simp only [shapeCast_self]
  exact device_hidden rtc0 x0 x1 x2 bitsLt_bf16_f32 broadcasts_S1x256_S4096x256 (Scalar.ofBits (F := Ideal) .f32 0x00000000#32)

/-- The second region's payload: every row of the block through the dense layer, then the log-softmax of the row. -/
theorem pay1_eq (x0 : Vec Ideal S4096x512 .f32) (x1 : Vec Ideal S512x64 .f32) (x2 : Vec Ideal S1x64 .f32) :
    k1_pay1 (F := Ideal) x0 x1 x2
      = mapRows (a := 4096) (K := 512) (J := 64) (outRow zM x1 (rowOf (a := 1) (b := 64) x2 0)) x0 := by
  unfold k1_pay1
  simp only [shapeCast_self]
  exact device_out rtc1 x0 x1 x2 bitsLt_bf16_f32 broadcasts_S1x64_S4096x64 _ rfl 0xFF800000#32 0x00000000#32
    reduces_S4096x64_S4096 (.inl rfl) rfl rfl shapeCasts_S4096_S4096x1 broadcasts_S4096x1_S4096x64

end Cert.KernelIdeal.Hand

end
-- ==== Proof.KernelBlocks.lean ====
/-
  From the blocks each grid point writes back to the whole output array, for both device regions.

  Each region tiles its input array and its output array by blocks of 4096 rows along a grid of 16 (first region) or 4
  (second region) points, and hands the weight matrix and the bias row whole to every point. A point's payload is a row
  map of its input block (KernelBody), and a row map of an array restricted to a block of rows is the row map of that
  block (`mapRows_block`): so point `t` writes back block `t` of ONE function of the region's arrays, the blocks cover
  the array, and the array ends holding that function — the rectified dense layer of every row after the first region,
  the log-softmax of the dense layer of every row after the second. Stated for the contents `V` the region is entered
  with, whatever they are.
-/
import proofs.«149258_j36344013259382_1_alg».proof.Proof.Gen.KernelIdeal.Frame
import proofs.«149258_j36344013259382_1_alg».proof.Proof.KernelBody
import Idealize.ShloMosaic.Lib.Pipeline.Value

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen
open Cert.RowLayers Cert.ChebRows Cert.Layers Cert.SageRows

theorem hz : (![0, 0] : Fin 2 → Nat) = fun _ => 0 := funext fun a => by fin_cases a <;> rfl

/-- A row map of an array, read inside a block of `a` rows that starts at row `R·n`, is the row map of the block. -/
theorem mapRows_block {A a K J R : ℕ} (f : (Fin K → EReal) → Fin J → EReal) (X : (⟨2, ![A, K]⟩ : Shape).Idx → EReal)
    (x0 : (⟨2, ![a, K]⟩ : Shape).Idx → EReal) (n : ℕ)
    (h0 : ∀ (y : (⟨2, ![a, K]⟩ : Shape).Idx) (i : (⟨2, ![A, K]⟩ : Shape).Idx),
      (i 0).val = R * n + (y 0).val → (i 1).val = (y 1).val → x0 y = X i)
    (y : (⟨2, ![a, J]⟩ : Shape).Idx) (i : (⟨2, ![A, J]⟩ : Shape).Idx)
    (hi0 : (i 0).val = R * n + (y 0).val) (hi1 : (i 1).val = (y 1).val) :
    mapRows f x0 y = mapRows f X i := by
  obtain ⟨p, q, rfl⟩ : ∃ (p : Fin a) (q : Fin J), y = ix2 p q := ⟨y 0, y 1, eq_ix2 y⟩
  obtain ⟨r, q', rfl⟩ : ∃ (r : Fin A) (q' : Fin J), i = ix2 r q' := ⟨i 0, i 1, eq_ix2 i⟩
  obtain rfl : q' = q := Fin.ext hi1
  rw [mapRows_ix2, mapRows_ix2]
  exact congrArg (fun g => f g q') (funext fun k => h0 (ix2 p k) (ix2 r k) hi0 rfl)

variable (V : (c : Dev nD) → (b : Ref sig .tc) → Buf (Elt Ideal) ((c : Thread nD τ).loc b))

/-! ## Region 0 -/

section Region0

/-- The printed index maps over the grid: the row-tiled windows (input 0 and the output) sit at block `t`, the weight
    matrix and the bias row are fetched whole at every point. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What the region's output array ends holding: every row of the input array through the region's row function. -/
abbrev hiddenArr (X : S65536x256.Idx → EReal) (W : S256x256.Idx → EReal) (B : S1x256.Idx → EReal) : S65536x256.Idx → EReal :=
  mapRows (a := 65536) (K := 256) (J := 256) (hiddenRow z0 W (rowOf (a := 1) (b := 256) B 0)) X

/-- Input window 0's block at point `t` holds rows `4096·t …` of its array. -/
theorem iblk0_0_apply (c : Dev nD) (t : Fin cfg0.N) (y : S4096x256.Idx) (i : S65536x256.Idx)
    (hi0 : (i 0).val = 4096 * t.val + (y 0).val) (hi1 : (i 1).val = (y 1).val) :
    (iblk0 V c 0 t : Vec Ideal S4096x256 .f32) y = (V c main_v20 : S65536x256.Idx → EReal) i := by
  obtain ⟨e0, e1, -⟩ := idx0 t
  unfold iblk0
  rw [View.read_apply]
  show (V c main_v20 : S65536x256.Idx → EReal) (((cfg0.win 0).blk t).view.emb y) = (V c main_v20 : S65536x256.Idx → EReal) i
  refine congrArg (V c main_v20 : S65536x256.Idx → EReal) ?_
  funext a
  apply Fin.ext
  match a with
  | ⟨0, _⟩ => show win0_0.index t 0 * 4096 + 1 * (y 0).val = (i 0).val; rw [e0, hi0]; omega
  | ⟨1, _⟩ => show win0_0.index t 1 * 256 + 1 * (y 1).val = (i 1).val; rw [e1, hi1]; omega

/-- Input window 1's block at every point is the whole weight matrix. -/
theorem iblk0_1_eq (c : Dev nD) (t : Fin cfg0.N) :
    (iblk0 V c 1 t : Vec Ideal S256x256 .f32) = (V c main_v23 : S256x256.Idx → EReal) := by
  obtain ⟨-, -, e0, e1, -⟩ := idx0 t
  funext y
  unfold iblk0
  rw [View.read_apply]
  show (V c main_v23 : S256x256.Idx → EReal) (((cfg0.win 1).blk t).view.emb y) = (V c main_v23 : S256x256.Idx → EReal) y
  refine congrArg (V c main_v23 : S256x256.Idx → EReal) ?_
  funext a
  apply Fin.ext
  match a with
  | ⟨0, _⟩ => show win0_1.index t 0 * 256 + 1 * (y 0).val = (y 0).val; rw [e0]; omega
  | ⟨1, _⟩ => show win0_1.index t 1 * 256 + 1 * (y 1).val = (y 1).val; rw [e1]; omega

/-- Input window 2's block at every point is the whole bias row. -/
theorem iblk0_2_eq (c : Dev nD) (t : Fin cfg0.N) :
    (iblk0 V c 2 t : Vec Ideal S1x256 .f32) = (V c main_v24 : S1x256.Idx → EReal) := by
  obtain ⟨-, -, -, -, e0, e1, -⟩ := idx0 t
  funext y
  unfold iblk0
  rw [View.read_apply]
  show (V c main_v24 : S1x256.Idx → EReal) (((cfg0.win 2).blk t).view.emb y) = (V c main_v24 : S1x256.Idx → EReal) y
  refine congrArg (V c main_v24 : S1x256.Idx → EReal) ?_
  funext a
  apply Fin.ext
  match a with
  | ⟨0, _⟩ => show win0_2.index t 0 * 1 + 1 * (y 0).val = (y 0).val; rw [e0]; omega
  | ⟨1, _⟩ => show win0_2.index t 1 * 256 + 1 * (y 1).val = (y 1).val; rw [e1]; omega

/-- WHAT POINT `t` WRITES BACK is block `t` of `hiddenArr` of the arrays as the region finds them: the body's payload is the
    row map of the input block, the block's rows are rows `4096·t …` of the input array, and the output block sits at
    the same rows. -/
theorem flushed0_eq (c : Dev nD) (t : Fin cfg0.N) :
    (dat0 V c).flushed 3 t
      = ((cfg0.win 3).blk t).view.read (Elt Ideal) (hiddenArr (V c main_v20) (V c main_v23) (V c main_v24)) := by
  show (cfg0.win 3).cut (grid0.coords t) ((dat0 V c).after 3 t) = _
  rw [after0_3]
  unfold out0_3
  rw [View.canon_unit_zero hz]
  simp only [View.ld_unit_zero (S := S4096x256) hz, View.ld_unit_zero (S := S256x256) hz, View.ld_unit_zero (S := S1x256) hz]
  refine (pay0_eq (iblk0 V c 0 t) (iblk0 V c 1 t) (iblk0 V c 2 t)).trans ?_
  rw [iblk0_1_eq V c t, iblk0_2_eq V c t]
  obtain ⟨-, -, -, -, -, -, e6, e7⟩ := idx0 t
  funext y
  rw [View.read_apply]
  refine mapRows_block (R := 4096) (hiddenRow z0 (V c main_v23) (rowOf (a := 1) (b := 256) (V c main_v24) 0))
    (V c main_v20 : S65536x256.Idx → EReal) (iblk0 V c 0 t : Vec Ideal S4096x256 .f32) t.val
    (fun y' i h0 h1 => iblk0_0_apply V c t y' i h0 h1) y _ ?_ ?_
  · show win0_3.index t 0 * 4096 + 1 * (y 0).val = 4096 * t.val + (y 0).val; rw [e6]; omega
  · show win0_3.index t 1 * 256 + 1 * (y 1).val = (y 1).val; rw [e7]; omega

/-- An index of the output array is in point `t`'s block iff each coordinate is in the block's range on its axis. -/
theorem mem_blk0 (t : Fin cfg0.N) (i : S65536x256.Idx) :
    i ∈ ((cfg0.win 3).blk t).view.set ↔ ∀ a : Fin 2, win0_3.index t a * S4096x256.size a ≤ (i a).val ∧ (i a).val < win0_3.index t a * S4096x256.size a + S4096x256.size a := by
  show i ∈ ((View.whole main_v25).slice (win0_3.rect t)).set ↔ _
  rw [View.set_slice_whole, Rect.mem_set_unit]
  exact Iff.rfl

/-- The output's blocks tile its array: row `r` is in block `r / 4096`. -/
theorem cover0 (i : S65536x256.Idx) : ∃ t : Fin cfg0.N, (cfg0.win 3).flush t = true ∧ i ∈ ((cfg0.win 3).blk t).view.set := by
  have hi0 : (i 0).val < 65536 := (i 0).isLt
  have hi1 : (i 1).val < 256 := (i 1).isLt
  have hN : cfg0.N = 16 := N_0
  let t : Fin cfg0.N := ⟨(i 0).val / 4096, by rw [hN]; omega⟩
  obtain ⟨-, -, -, -, -, -, e6, e7⟩ := idx0 t
  refine ⟨t, flush0_3 t, ?_⟩
  rw [mem_blk0]
  intro a
  match a with
  | ⟨0, _⟩ =>
    show win0_3.index t 0 * 4096 ≤ (i 0).val ∧ (i 0).val < win0_3.index t 0 * 4096 + 4096
    rw [e6]; show (i 0).val / 4096 * 4096 ≤ (i 0).val ∧ (i 0).val < (i 0).val / 4096 * 4096 + 4096; omega
  | ⟨1, _⟩ =>
    show win0_3.index t 1 * 256 ≤ (i 1).val ∧ (i 1).val < win0_3.index t 1 * 256 + 256
    rw [e7]; omega

/-- THE OUTPUT ARRAY after the region: `hiddenArr` of the arrays as the region finds them. -/
theorem final0 (c : Dev nD) :
    (dat0 V c).arrAt 3 cfg0.N = hiddenArr (V c main_v20) (V c main_v23) (V c main_v24) :=
  (dat0 V c).arrAt_eq_of_cover 3 (hiddenArr (V c main_v20) (V c main_v23) (V c main_v24)) (fun t _ => flushed0_eq V c t) cover0

end Region0

/-! ## Region 1 -/

section Region1

/-- The printed index maps over the grid: the row-tiled windows (input 0 and the output) sit at block `t`, the weight
    matrix and the bias row are fetched whole at every point. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What the region's output array ends holding: every row of the input array through the region's row function. -/
abbrev outArr (X : S16384x512.Idx → EReal) (W : S512x64.Idx → EReal) (B : S1x64.Idx → EReal) : S16384x64.Idx → EReal :=
  mapRows (a := 16384) (K := 512) (J := 64) (outRow zM W (rowOf (a := 1) (b := 64) B 0)) X

/-- Input window 0's block at point `t` holds rows `4096·t …` of its array. -/
theorem iblk1_0_apply (c : Dev nD) (t : Fin cfg1.N) (y : S4096x512.Idx) (i : S16384x512.Idx)
    (hi0 : (i 0).val = 4096 * t.val + (y 0).val) (hi1 : (i 1).val = (y 1).val) :
    (iblk1 V c 0 t : Vec Ideal S4096x512 .f32) y = (V c main_v46 : S16384x512.Idx → EReal) i := by
  obtain ⟨e0, e1, -⟩ := idx1 t
  unfold iblk1
  rw [View.read_apply]
  show (V c main_v46 : S16384x512.Idx → EReal) (((cfg1.win 0).blk t).view.emb y) = (V c main_v46 : S16384x512.Idx → EReal) i
  refine congrArg (V c main_v46 : S16384x512.Idx → EReal) ?_
  funext a
  apply Fin.ext
  match a with
  | ⟨0, _⟩ => show win1_0.index t 0 * 4096 + 1 * (y 0).val = (i 0).val; rw [e0, hi0]; omega
  | ⟨1, _⟩ => show win1_0.index t 1 * 512 + 1 * (y 1).val = (i 1).val; rw [e1, hi1]; omega

/-- Input window 1's block at every point is the whole weight matrix. -/
theorem iblk1_1_eq (c : Dev nD) (t : Fin cfg1.N) :
    (iblk1 V c 1 t : Vec Ideal S512x64 .f32) = (V c main_v49 : S512x64.Idx → EReal) := by
  obtain ⟨-, -, e0, e1, -⟩ := idx1 t
  funext y
  unfold iblk1
  rw [View.read_apply]
  show (V c main_v49 : S512x64.Idx → EReal) (((cfg1.win 1).blk t).view.emb y) = (V c main_v49 : S512x64.Idx → EReal) y
  refine congrArg (V c main_v49 : S512x64.Idx → EReal) ?_
  funext a
  apply Fin.ext
  match a with
  | ⟨0, _⟩ => show win1_1.index t 0 * 512 + 1 * (y 0).val = (y 0).val; rw [e0]; omega
  | ⟨1, _⟩ => show win1_1.index t 1 * 64 + 1 * (y 1).val = (y 1).val; rw [e1]; omega

/-- Input window 2's block at every point is the whole bias row. -/
theorem iblk1_2_eq (c : Dev nD) (t : Fin cfg1.N) :
    (iblk1 V c 2 t : Vec Ideal S1x64 .f32) = (V c main_v50 : S1x64.Idx → EReal) := by
  obtain ⟨-, -, -, -, e0, e1, -⟩ := idx1 t
  funext y
  unfold iblk1
  rw [View.read_apply]
  show (V c main_v50 : S1x64.Idx → EReal) (((cfg1.win 2).blk t).view.emb y) = (V c main_v50 : S1x64.Idx → EReal) y
  refine congrArg (V c main_v50 : S1x64.Idx → EReal) ?_
  funext a
  apply Fin.ext
  match a with
  | ⟨0, _⟩ => show win1_2.index t 0 * 1 + 1 * (y 0).val = (y 0).val; rw [e0]; omega
  | ⟨1, _⟩ => show win1_2.index t 1 * 64 + 1 * (y 1).val = (y 1).val; rw [e1]; omega

/-- WHAT POINT `t` WRITES BACK is block `t` of `outArr` of the arrays as the region finds them: the body's payload is the
    row map of the input block, the block's rows are rows `4096·t …` of the input array, and the output block sits at
    the same rows. -/
theorem flushed1_eq (c : Dev nD) (t : Fin cfg1.N) :
    (dat1 V c).flushed 3 t
      = ((cfg1.win 3).blk t).view.read (Elt Ideal) (outArr (V c main_v46) (V c main_v49) (V c main_v50)) := by
  show (cfg1.win 3).cut (grid1.coords t) ((dat1 V c).after 3 t) = _
  rw [after1_3]
  unfold out1_3
  rw [View.canon_unit_zero hz]
  simp only [View.ld_unit_zero (S := S4096x512) hz, View.ld_unit_zero (S := S512x64) hz, View.ld_unit_zero (S := S1x64) hz]
  refine (pay1_eq (iblk1 V c 0 t) (iblk1 V c 1 t) (iblk1 V c 2 t)).trans ?_
  rw [iblk1_1_eq V c t, iblk1_2_eq V c t]
  obtain ⟨-, -, -, -, -, -, e6, e7⟩ := idx1 t
  funext y
  rw [View.read_apply]
  refine mapRows_block (R := 4096) (outRow zM (V c main_v49) (rowOf (a := 1) (b := 64) (V c main_v50) 0))
    (V c main_v46 : S16384x512.Idx → EReal) (iblk1 V c 0 t : Vec Ideal S4096x512 .f32) t.val
    (fun y' i h0 h1 => iblk1_0_apply V c t y' i h0 h1) y _ ?_ ?_
  · show win1_3.index t 0 * 4096 + 1 * (y 0).val = 4096 * t.val + (y 0).val; rw [e6]; omega
  · show win1_3.index t 1 * 64 + 1 * (y 1).val = (y 1).val; rw [e7]; omega

/-- An index of the output array is in point `t`'s block iff each coordinate is in the block's range on its axis. -/
theorem mem_blk1 (t : Fin cfg1.N) (i : S16384x64.Idx) :
    i ∈ ((cfg1.win 3).blk t).view.set ↔ ∀ a : Fin 2, win1_3.index t a * S4096x64.size a ≤ (i a).val ∧ (i a).val < win1_3.index t a * S4096x64.size a + S4096x64.size a := by
  show i ∈ ((View.whole main_v51).slice (win1_3.rect t)).set ↔ _
  rw [View.set_slice_whole, Rect.mem_set_unit]
  exact Iff.rfl

/-- The output's blocks tile its array: row `r` is in block `r / 4096`. -/
theorem cover1 (i : S16384x64.Idx) : ∃ t : Fin cfg1.N, (cfg1.win 3).flush t = true ∧ i ∈ ((cfg1.win 3).blk t).view.set := by
  have hi0 : (i 0).val < 16384 := (i 0).isLt
  have hi1 : (i 1).val < 64 := (i 1).isLt
  have hN : cfg1.N = 4 := N_1
  let t : Fin cfg1.N := ⟨(i 0).val / 4096, by rw [hN]; omega⟩
  obtain ⟨-, -, -, -, -, -, e6, e7⟩ := idx1 t
  refine ⟨t, flush1_3 t, ?_⟩
  rw [mem_blk1]
  intro a
  match a with
  | ⟨0, _⟩ =>
    show win1_3.index t 0 * 4096 ≤ (i 0).val ∧ (i 0).val < win1_3.index t 0 * 4096 + 4096
    rw [e6]; show (i 0).val / 4096 * 4096 ≤ (i 0).val ∧ (i 0).val < (i 0).val / 4096 * 4096 + 4096; omega
  | ⟨1, _⟩ =>
    show win1_3.index t 1 * 64 ≤ (i 1).val ∧ (i 1).val < win1_3.index t 1 * 64 + 64
    rw [e7]; omega

/-- THE OUTPUT ARRAY after the region: `outArr` of the arrays as the region finds them. -/
theorem final1 (c : Dev nD) :
    (dat1 V c).arrAt 3 cfg1.N = outArr (V c main_v46) (V c main_v49) (V c main_v50) :=
  (dat1 V c).arrAt_eq_of_cover 3 (outArr (V c main_v46) (V c main_v49) (V c main_v50)) (fun t _ => flushed1_eq V c t) cover1

end Region1

end Cert.KernelIdeal.Hand

end
-- ==== Proof.KernelRun.lean ====
/-
  The idealized kernel's run with its result array named.

  @main is four segments: the host operations before the first device region, that region, the host operations between
  the two regions, the second region. The buffer contents at each boundary are a fold from the launch memory; the last
  boundary's contents `W4` hold, at the result buffer, what the second region's write-backs leave. Every weakly fair
  execution terminates without a fault in a state whose unscoped buffers are `W4`: read at the result buffer and at
  the eleven argument buffers, that is the statement below (the arguments end as launched).
-/
import proofs.«149258_j36344013259382_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting, with the result buffer at the last boundary's
    contents and every argument array as launched. -/
theorem run_out : θ_run defs (onTc (τ := τ) (main (F := F))) ⟨m, fun _ => 0, ρ⟩ (fun r => ∀ c : Dev nD,
      r.2.mem ((c.tc : Thread nD τ).loc main_v51) = W4 m ρ c (Proc.devRef .tc main_v51)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v51 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c)⟩)

end Cert.KernelIdeal.Hand

end
-- ==== Proof.KernelValue.lean ====
/-
  What the idealized kernel's result buffer holds at the end, as one function of the argument arrays.

  The host operations before the first region build its three operands: the aggregated rows and the targets' own rows
  set side by side (`comb₁`), the two transposed weight matrices stacked (`stack₁`), the bias as a row. The region
  leaves the rectified dense layer of every row (`kHidden`). The host operations between the regions build the second
  region's operands from that array in the same way, and the second region leaves the log-softmax of the dense layer
  of every row (`kernelOut`). Each host stretch is read from the contents it starts from; each region's output array is
  KernelBlocks' whole-array function of the contents the region is entered with.
-/
import proofs.«149258_j36344013259382_1_alg».proof.Proof.KernelBlocks
import proofs.«149258_j36344013259382_1_alg».proof.Proof.KernelRun
import Idealize.ShloMosaic.Lib.StableHlo.Run

noncomputable section

namespace Cert.KernelIdeal.Hand

open Idealize.ShloMosaic Idealize.ShloMosaic.TcCoe Idealize.ShloMosaic.ValueIdx Idealize.SL.Sem Idealize.ShloMosaic.StableHlo
open Cert.KernelIdeal Cert.KernelIdeal.Gen
open Cert.RowLayers Cert.ChebRows Cert.Layers Cert.SageRows

/-! ## The host stages -/

section Host
variable {F : FTy → Type} [FloatOps F]

/-- A negative row number counts from the end: `where(i < 0, i + n, i)`, then a unit trailing axis. -/
def kStartRows₁ (src : (⟨S1048576, .i32⟩ : BufTy).Contents (Elt F)) : (⟨S1048576x1, .i32⟩ : BufTy).Contents (Elt F) :=
  broadcastInDim S1048576x1 ![0] bcast_S1048576_S1048576x1_0
    (select (cmpi .slt src (broadcastInDim S1048576 ![] bcast_S_S1048576 (constantI S_ 32 0#32)))
      (addi src (broadcastInDim S1048576 ![] bcast_S_S1048576 (constantI S_ 32 262144#32))) src)

/-- The first layer's aggregation: the rows of `x` gathered at the sources, summed at the targets, divided by
    `max (number of edges into the target) 1`. -/
def kAggregate₁ (x : FVec F S262144x128 .f32) (src dst : (⟨S1048576, .i32⟩ : BufTy).Contents (Elt F)) : FVec F S65536x128 .f32 :=
  Host.divf
    (Host.scatterAdd scatter_S65536x128_S1048576x1_S1048576x128_1_0_0_1
      (broadcastInDim S65536x128 ![] bcast_S_S65536x128 (constant S_ .f32 0x00000000#32))
      (broadcastInDim S1048576x1 ![0] bcast_S1048576_S1048576x1_0 dst)
      (Host.gather gather_S262144x128_S1048576x1_S1048576x128_1_0_n_n_0_1_1128 x (kStartRows₁ src)))
    (broadcastInDim S65536x128 ![0, 1] bcast_S65536x1_S65536x128_0_1
      (broadcastInDim S65536x1 ![0] bcast_S65536_S65536x1_0
        (maximumf
          (Host.scatterAdd scatter_S65536_S1048576x1_S1048576_n_0_0_1
            (broadcastInDim S65536 ![] bcast_S_S65536 (constant S_ .f32 0x00000000#32))
            (broadcastInDim S1048576x1 ![0] bcast_S1048576_S1048576x1_0 dst)
            (broadcastInDim S1048576 ![] bcast_S_S1048576 (constant S_ .f32 0x3F800000#32)))
          (broadcastInDim S65536 ![] bcast_S_S65536 (constant S_ .f32 0x3F800000#32)))))

/-- The first region's row operand: the aggregated rows and the targets' own rows (the first 65536 rows of `x`) side by side. -/
def comb₁ (x : FVec F S262144x128 .f32) (src dst : (⟨S1048576, .i32⟩ : BufTy).Contents (Elt F)) : FVec F S65536x256 .f32 :=
  concatenate S65536x256 1 [⟨S65536x128, kAggregate₁ x src dst⟩,
    ⟨S65536x128, extractStridedSlice S65536x128 ![0, 0] x slices_S262144x128_S65536x128_0_0⟩] concatenates_S65536x128_S65536x128_S65536x256_d1

/-- The first region's weight operand: `W_l`ᵀ on top of `W_r`ᵀ. -/
def stack₁ (wl wr : FVec F S256x128 .f32) : FVec F S256x256 .f32 :=
  concatenate S256x256 0 [⟨S128x256, transpose S128x256 [1, 0] wl transposes_S256x128_S128x256_1_0⟩,
    ⟨S128x256, transpose S128x256 [1, 0] wr transposes_S256x128_S128x256_1_0⟩] concatenates_S128x256_S128x256_S256x256_d0

/-- The second layer's row numbers, negative ones counted from the end, with a unit trailing axis. -/
def kStartRows₂ (src : (⟨S262144, .i32⟩ : BufTy).Contents (Elt F)) : (⟨S262144x1, .i32⟩ : BufTy).Contents (Elt F) :=
  broadcastInDim S262144x1 ![0] bcast_S262144_S262144x1_0
    (select (cmpi .slt src (broadcastInDim S262144 ![] bcast_S_S262144 (constantI S_ 32 0#32)))
      (addi src (broadcastInDim S262144 ![] bcast_S_S262144 (constantI S_ 32 65536#32))) src)

/-- The second layer's aggregation of the hidden rows `h`. -/
def kAggregate₂ (h : FVec F S65536x256 .f32) (src dst : (⟨S262144, .i32⟩ : BufTy).Contents (Elt F)) : FVec F S16384x256 .f32 :=
  Host.divf
    (Host.scatterAdd scatter_S16384x256_S262144x1_S262144x256_1_0_0_1
      (broadcastInDim S16384x256 ![] bcast_S_S16384x256 (constant S_ .f32 0x00000000#32))
      (broadcastInDim S262144x1 ![0] bcast_S262144_S262144x1_0 dst)
      (Host.gather gather_S65536x256_S262144x1_S262144x256_1_0_n_n_0_1_1256 h (kStartRows₂ src)))
    (broadcastInDim S16384x256 ![0, 1] bcast_S16384x1_S16384x256_0_1
      (broadcastInDim S16384x1 ![0] bcast_S16384_S16384x1_0
        (maximumf
          (Host.scatterAdd scatter_S16384_S262144x1_S262144_n_0_0_1
            (broadcastInDim S16384 ![] bcast_S_S16384 (constant S_ .f32 0x00000000#32))
            (broadcastInDim S262144x1 ![0] bcast_S262144_S262144x1_0 dst)
            (broadcastInDim S262144 ![] bcast_S_S262144 (constant S_ .f32 0x3F800000#32)))
          (broadcastInDim S16384 ![] bcast_S_S16384 (constant S_ .f32 0x3F800000#32)))))

/-- The second region's row operand: the aggregated hidden rows and the targets' own hidden rows side by side. -/
def comb₂ (h : FVec F S65536x256 .f32) (src dst : (⟨S262144, .i32⟩ : BufTy).Contents (Elt F)) : FVec F S16384x512 .f32 :=
  concatenate S16384x512 1 [⟨S16384x256, kAggregate₂ h src dst⟩,
    ⟨S16384x256, extractStridedSlice S16384x256 ![0, 0] h slices_S65536x256_S16384x256_0_0⟩] concatenates_S16384x256_S16384x256_S16384x512_d1

/-- The second region's weight operand. -/
def stack₂ (wl wr : FVec F S64x256 .f32) : FVec F S512x64 .f32 :=
  concatenate S512x64 0 [⟨S256x64, transpose S256x64 [1, 0] wl transposes_S64x256_S256x64_1_0⟩,
    ⟨S256x64, transpose S256x64 [1, 0] wr transposes_S64x256_S256x64_1_0⟩] concatenates_S256x64_S256x64_S512x64_d0

/-! ## The two host stretches, each from arbitrary contents -/

section Stretches
variable (W : Valuation τ sig (Elt F))

/-- The first stretch leaves the first region's three operands, functions of six arguments as it finds them. -/
theorem ops0_v20 : after (hostOps0 (F := F)) W (Proc.devRef .tc main_v20) = comb₁ (W (Proc.devRef .tc main_arg0)) (W (Proc.devRef .tc main_arg1)) (W (Proc.devRef .tc main_arg2)) := by
  after_results_simp <;> rfl
theorem ops0_v23 : after (hostOps0 (F := F)) W (Proc.devRef .tc main_v23) = stack₁ (W (Proc.devRef .tc main_arg5)) (W (Proc.devRef .tc main_arg6)) := by
  after_results_simp <;> rfl
theorem ops0_v24 : after (hostOps0 (F := F)) W (Proc.devRef .tc main_v24) = shapeCast S1x256 (W (Proc.devRef .tc main_arg7)) shapeCasts_S256_S1x256 := by
  after_results_simp <;> rfl

/-- The first stretch writes none of the arguments the second stretch reads. -/
theorem ops0_arg3 : after (hostOps0 (F := F)) W (Proc.devRef .tc main_arg3) = W (Proc.devRef .tc main_arg3) := by after_results_simp <;> rfl
theorem ops0_arg4 : after (hostOps0 (F := F)) W (Proc.devRef .tc main_arg4) = W (Proc.devRef .tc main_arg4) := by after_results_simp <;> rfl
theorem ops0_arg8 : after (hostOps0 (F := F)) W (Proc.devRef .tc main_arg8) = W (Proc.devRef .tc main_arg8) := by after_results_simp <;> rfl
theorem ops0_arg9 : after (hostOps0 (F := F)) W (Proc.devRef .tc main_arg9) = W (Proc.devRef .tc main_arg9) := by after_results_simp <;> rfl
theorem ops0_arg10 : after (hostOps0 (F := F)) W (Proc.devRef .tc main_arg10) = W (Proc.devRef .tc main_arg10) := by after_results_simp <;> rfl

/-- The second stretch leaves the second region's three operands, functions of the first region's output array and
    five arguments as it finds them. -/
theorem ops1_v46 : after (hostOps1 (F := F)) W (Proc.devRef .tc main_v46) = comb₂ (W (Proc.devRef .tc main_v25)) (W (Proc.devRef .tc main_arg3)) (W (Proc.devRef .tc main_arg4)) := by
  after_results_simp <;> rfl
theorem ops1_v49 : after (hostOps1 (F := F)) W (Proc.devRef .tc main_v49) = stack₂ (W (Proc.devRef .tc main_arg8)) (W (Proc.devRef .tc main_arg9)) := by
  after_results_simp <;> rfl
theorem ops1_v50 : after (hostOps1 (F := F)) W (Proc.devRef .tc main_v50) = shapeCast S1x64 (W (Proc.devRef .tc main_arg10)) shapeCasts_S64_S1x64 := by
  after_results_simp <;> rfl

end Stretches

/-! ## The contents at the segment boundaries -/

variable (m : (ℓ : Loc nD τ sig) → Buf (Elt F) ℓ) (ρ : Dev nD → PrngReg)

/-- The first region's operands, from the launch contents. -/
theorem V1_v20 (c : Dev nD) : V1 m ρ c main_v20 = comb₁ (m ((c.tc : Thread nD τ).loc main_arg0)) (m ((c.tc : Thread nD τ).loc main_arg1)) (m ((c.tc : Thread nD τ).loc main_arg2)) := ops0_v20 (W0 m ρ c)
theorem V1_v23 (c : Dev nD) : V1 m ρ c main_v23 = stack₁ (m ((c.tc : Thread nD τ).loc main_arg5)) (m ((c.tc : Thread nD τ).loc main_arg6)) := ops0_v23 (W0 m ρ c)
theorem V1_v24 (c : Dev nD) : V1 m ρ c main_v24 = shapeCast S1x256 (m ((c.tc : Thread nD τ).loc main_arg7)) shapeCasts_S256_S1x256 := ops0_v24 (W0 m ρ c)

/-- Neither the first stretch nor the first region writes the arguments the second stretch reads. -/
theorem W2_arg (c : Dev nD) :
    W2 m ρ c (Proc.devRef .tc main_arg3) = m ((c.tc : Thread nD τ).loc main_arg3)
    ∧ W2 m ρ c (Proc.devRef .tc main_arg4) = m ((c.tc : Thread nD τ).loc main_arg4)
    ∧ W2 m ρ c (Proc.devRef .tc main_arg8) = m ((c.tc : Thread nD τ).loc main_arg8)
    ∧ W2 m ρ c (Proc.devRef .tc main_arg9) = m ((c.tc : Thread nD τ).loc main_arg9)
    ∧ W2 m ρ c (Proc.devRef .tc main_arg10) = m ((c.tc : Thread nD τ).loc main_arg10) :=
  ⟨(W2_of_ne m ρ c main_arg3 (by decide)).trans (ops0_arg3 (W0 m ρ c)), (W2_of_ne m ρ c main_arg4 (by decide)).trans (ops0_arg4 (W0 m ρ c)),
    (W2_of_ne m ρ c main_arg8 (by decide)).trans (ops0_arg8 (W0 m ρ c)), (W2_of_ne m ρ c main_arg9 (by decide)).trans (ops0_arg9 (W0 m ρ c)),
    (W2_of_ne m ρ c main_arg10 (by decide)).trans (ops0_arg10 (W0 m ρ c))⟩

/-- The second region's operands, from the contents the first region leaves. -/
theorem V3_v46 (c : Dev nD) : V3 m ρ c main_v46
    = comb₂ (W2 m ρ c (Proc.devRef .tc main_v25)) (W2 m ρ c (Proc.devRef .tc main_arg3)) (W2 m ρ c (Proc.devRef .tc main_arg4)) :=
  ops1_v46 (W2 m ρ c)
theorem V3_v49 (c : Dev nD) : V3 m ρ c main_v49
    = stack₂ (W2 m ρ c (Proc.devRef .tc main_arg8)) (W2 m ρ c (Proc.devRef .tc main_arg9)) := ops1_v49 (W2 m ρ c)
theorem V3_v50 (c : Dev nD) : V3 m ρ c main_v50
    = shapeCast S1x64 (W2 m ρ c (Proc.devRef .tc main_arg10)) shapeCasts_S64_S1x64 := ops1_v50 (W2 m ρ c)

end Host

/-! ## The two regions' outputs, at the ideal instance -/

variable (m : (ℓ : Loc nD τ sig) → Buf (Elt Ideal) ℓ) (ρ : Dev nD → PrngReg)

/-- The first layer as the kernel computes it. -/
def kHidden (x : FVec Ideal S262144x128 .f32) (src dst : (⟨S1048576, .i32⟩ : BufTy).Contents (Elt Ideal)) (wl wr : FVec Ideal S256x128 .f32) (b : FVec Ideal S256 .f32) :
    FVec Ideal S65536x256 .f32 :=
  hiddenArr (comb₁ x src dst) (stack₁ wl wr) (shapeCast S1x256 b shapeCasts_S256_S1x256)

/-- The kernel's result as one function of its eleven arguments. -/
def kernelOut (x : FVec Ideal S262144x128 .f32) (src1 dst1 : (⟨S1048576, .i32⟩ : BufTy).Contents (Elt Ideal)) (src2 dst2 : (⟨S262144, .i32⟩ : BufTy).Contents (Elt Ideal))
    (w1l w1r : FVec Ideal S256x128 .f32) (b1 : FVec Ideal S256 .f32) (w2l w2r : FVec Ideal S64x256 .f32) (b2 : FVec Ideal S64 .f32) : FVec Ideal S16384x64 .f32 :=
  outArr (comb₂ (kHidden x src1 dst1 w1l w1r b1) src2 dst2) (stack₂ w2l w2r) (shapeCast S1x64 b2 shapeCasts_S64_S1x64)

/-- After the first region its output array holds the first layer. -/
theorem W2_v25 (c : Dev nD) : W2 m ρ c (Proc.devRef .tc main_v25)
    = kHidden (m ((c.tc : Thread nD τ).loc main_arg0)) (m ((c.tc : Thread nD τ).loc main_arg1)) (m ((c.tc : Thread nD τ).loc main_arg2))
        (m ((c.tc : Thread nD τ).loc main_arg5)) (m ((c.tc : Thread nD τ).loc main_arg6)) (m ((c.tc : Thread nD τ).loc main_arg7)) := by
  refine (W2_arr m ρ c 3).trans ?_
  rw [final0 (V1 m ρ) c, V1_v20, V1_v23, V1_v24]
  rfl

/-- THE RESULT BUFFER at the end of @main: `kernelOut` of the launch contents. -/
theorem W4_v51 (c : Dev nD) : W4 m ρ c (Proc.devRef .tc main_v51)
    = kernelOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  obtain ⟨h3, h4, h8, h9, h10⟩ := W2_arg m ρ c
  refine (W4_arr m ρ c 3).trans ?_
  rw [final1 (V3 m ρ) c, V3_v46, V3_v49, V3_v50, W2_v25, h3, h4, h8, h9, h10]
  rfl

/-- The idealized kernel's run with its result named: every weakly fair execution terminates with the result buffer at
    `kernelOut` of the launch contents and the arguments unchanged. -/
theorem run : θ_run defs (onTc (τ := τ) (main (F := Ideal))) ⟨m, fun _ => 0, ρ⟩ (fun r => ∀ c : Dev nD,
      r.2.mem ((c.tc : Thread nD τ).loc main_v51) = kernelOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h c).1.trans (W4_v51 m ρ c), (h c).2⟩) (run_out (F := Ideal) m ρ)

end Cert.KernelIdeal.Hand

end
-- ==== Proof.RefStages.lean ====
/-
  The reference's run read one stretch at a time.

  The reference computes, in order: the first layer — the mean of the gathered source rows at every target (a gather,
  two accumulating scatters, a guarded division: `aggregate₁`), two matrix products with the bias added between them,
  and a rectifier (`hidden`); the second layer — the same aggregation of the hidden rows (`aggregate₂`), the two
  products and the bias (`logits`); and the row-wise log-softmax of the logits (`logSoftmaxHost`). Each of the three
  stretches of operations is read from ARBITRARY contents `V` at its entry: its one result as the stage's function of
  the buffers it reads, and the buffers it does not write as they were. The fold of all 86 operations is the fold of
  the third stretch over the second over the first, so the result buffer ends at
  `logSoftmaxHost (logits (hidden …) …)` of the launch contents, with no intermediate written out more than once.
-/
import proofs.«149258_j36344013259382_1_alg».proof.Proof.RefRunP
import Idealize.ShloMosaic.PureOps.Ideal

noncomputable section

namespace Cert.ReferenceIdeal.Hand

open Cert.ReferenceIdeal Cert.ReferenceIdeal.Gen Cert.ReferenceIdeal.ValueP
open Idealize.ShloMosaic Idealize.ShloMosaic.TcCoe Idealize.SL.Sem Idealize.ShloMosaic.StableHlo

variable {F : FTy → Type} [FloatOps F]

/-! ## The stages -/

/-- A negative row number counts from the end: `where(i < 0, i + n, i)`, then a unit trailing axis. -/
def startRows₁ (src : (⟨S1048576, .i32⟩ : BufTy).Contents (Elt F)) : (⟨S1048576x1, .i32⟩ : BufTy).Contents (Elt F) :=
  broadcastInDim S1048576x1 ![0] bcast_S1048576_S1048576x1_0
    (select (cmpi .slt src (broadcastInDim S1048576 ![] bcast_S_S1048576 (constantI S_ 32 0#32)))
      (addi src (broadcastInDim S1048576 ![] bcast_S_S1048576 (constantI S_ 32 262144#32))) src)

/-- The first layer's aggregation: the rows of `x` gathered at the sources, summed at the targets, divided by
    `max (number of edges into the target) 1`. -/
def aggregate₁ (x : FVec F S262144x128 .f32) (src dst : (⟨S1048576, .i32⟩ : BufTy).Contents (Elt F)) : FVec F S65536x128 .f32 :=
  Host.divf
    (Host.scatterAdd scatter_S65536x128_S1048576x1_S1048576x128_1_0_0_1
      (broadcastInDim S65536x128 ![] bcast_S_S65536x128 (constant S_ .f32 0x00000000#32))
      (broadcastInDim S1048576x1 ![0] bcast_S1048576_S1048576x1_0 dst)
      (Host.gather gather_S262144x128_S1048576x1_S1048576x128_1_0_n_n_0_1_1128 x (startRows₁ src)))
    (broadcastInDim S65536x128 ![0, 1] bcast_S65536x1_S65536x128_0_1
      (broadcastInDim S65536x1 ![0] bcast_S65536_S65536x1_0
        (maximumf
          (Host.scatterAdd scatter_S65536_S1048576x1_S1048576_n_0_0_1
            (broadcastInDim S65536 ![] bcast_S_S65536 (constant S_ .f32 0x00000000#32))
            (broadcastInDim S1048576x1 ![0] bcast_S1048576_S1048576x1_0 dst)
            (broadcastInDim S1048576 ![] bcast_S_S1048576 (constant S_ .f32 0x3F800000#32)))
          (broadcastInDim S65536 ![] bcast_S_S65536 (constant S_ .f32 0x3F800000#32)))))

/-- The first layer before its rectifier: the aggregated rows through `W_l`ᵀ, plus the bias, plus the targets' own rows
    (the first 65536 rows of `x`) through `W_r`ᵀ. -/
def preHidden (x : FVec F S262144x128 .f32) (src dst : (⟨S1048576, .i32⟩ : BufTy).Contents (Elt F)) (wl wr : FVec F S256x128 .f32) (b : FVec F S256 .f32) :
    FVec F S65536x256 .f32 :=
  addf
    (addf
      (Host.dotGeneral dot_S65536x128_S128x256_S65536x256_1_0_0_1_n_n none (aggregate₁ x src dst)
        (transpose S128x256 [1, 0] wl transposes_S256x128_S128x256_1_0))
      (broadcastInDim S65536x256 ![0, 1] bcast_S1x256_S65536x256_0_1 (broadcastInDim S1x256 ![1] bcast_S256_S1x256_1 b)))
    (Host.dotGeneral dot_S65536x128_S128x256_S65536x256_1_0_0_1_n_n none
      (extractStridedSlice S65536x128 ![0, 0] x slices_S262144x128_S65536x128_0_0)
      (transpose S128x256 [1, 0] wr transposes_S256x128_S128x256_1_0))

/-- The first layer: the rectifier of `preHidden`. -/
def hidden (x : FVec F S262144x128 .f32) (src dst : (⟨S1048576, .i32⟩ : BufTy).Contents (Elt F)) (wl wr : FVec F S256x128 .f32) (b : FVec F S256 .f32) :
    FVec F S65536x256 .f32 :=
  maximumf (preHidden x src dst wl wr b) (broadcastInDim S65536x256 ![] bcast_S_S65536x256 (constant S_ .f32 0x00000000#32))

/-- The second layer's row numbers, negative ones counted from the end, with a unit trailing axis. -/
def startRows₂ (src : (⟨S262144, .i32⟩ : BufTy).Contents (Elt F)) : (⟨S262144x1, .i32⟩ : BufTy).Contents (Elt F) :=
  broadcastInDim S262144x1 ![0] bcast_S262144_S262144x1_0
    (select (cmpi .slt src (broadcastInDim S262144 ![] bcast_S_S262144 (constantI S_ 32 0#32)))
      (addi src (broadcastInDim S262144 ![] bcast_S_S262144 (constantI S_ 32 65536#32))) src)

/-- The second layer's aggregation of the hidden rows `h`. -/
def aggregate₂ (h : FVec F S65536x256 .f32) (src dst : (⟨S262144, .i32⟩ : BufTy).Contents (Elt F)) : FVec F S16384x256 .f32 :=
  Host.divf
    (Host.scatterAdd scatter_S16384x256_S262144x1_S262144x256_1_0_0_1
      (broadcastInDim S16384x256 ![] bcast_S_S16384x256 (constant S_ .f32 0x00000000#32))
      (broadcastInDim S262144x1 ![0] bcast_S262144_S262144x1_0 dst)
      (Host.gather gather_S65536x256_S262144x1_S262144x256_1_0_n_n_0_1_1256 h (startRows₂ src)))
    (broadcastInDim S16384x256 ![0, 1] bcast_S16384x1_S16384x256_0_1
      (broadcastInDim S16384x1 ![0] bcast_S16384_S16384x1_0
        (maximumf
          (Host.scatterAdd scatter_S16384_S262144x1_S262144_n_0_0_1
            (broadcastInDim S16384 ![] bcast_S_S16384 (constant S_ .f32 0x00000000#32))
            (broadcastInDim S262144x1 ![0] bcast_S262144_S262144x1_0 dst)
            (broadcastInDim S262144 ![] bcast_S_S262144 (constant S_ .f32 0x3F800000#32)))
          (broadcastInDim S16384 ![] bcast_S_S16384 (constant S_ .f32 0x3F800000#32)))))

/-- The second layer before the log-softmax, from the hidden rows `h`. -/
def logits (h : FVec F S65536x256 .f32) (src dst : (⟨S262144, .i32⟩ : BufTy).Contents (Elt F)) (wl wr : FVec F S64x256 .f32) (b : FVec F S64 .f32) :
    FVec F S16384x64 .f32 :=
  addf
    (addf
      (Host.dotGeneral dot_S16384x256_S256x64_S16384x64_1_0_0_1_n_n none (aggregate₂ h src dst)
        (transpose S256x64 [1, 0] wl transposes_S64x256_S256x64_1_0))
      (broadcastInDim S16384x64 ![0, 1] bcast_S1x64_S16384x64_0_1 (broadcastInDim S1x64 ![1] bcast_S64_S1x64_1 b)))
    (Host.dotGeneral dot_S16384x256_S256x64_S16384x64_1_0_0_1_n_n none
      (extractStridedSlice S16384x256 ![0, 0] h slices_S65536x256_S16384x256_0_0)
      (transpose S256x64 [1, 0] wr transposes_S64x256_S256x64_1_0))

/-- The host's row-wise log-softmax of `L`. -/
def logSoftmaxHost (L : FVec F S16384x64 .f32) : FVec F S16384x64 .f32 :=
  subf
    (subf L (broadcastInDim S16384x64 ![0, 1] bcast_S16384x1_S16384x64_0_1 (broadcastInDim S16384x1 ![0] bcast_S16384_S16384x1_0
      (maximumf (broadcastInDim S16384 ![] bcast_S_S16384 (constant S_ .f32 0xFF800000#32))
        (Host.reduce FloatOps.maximumf L (constant S_ .f32 0xFF800000#32) reducesTo_S16384x64_S16384_d1 h_S_)))))
    (broadcastInDim S16384x64 ![0, 1] bcast_S16384x1_S16384x64_0_1 (Host.log (broadcastInDim S16384x1 ![0] bcast_S16384_S16384x1_0
      (Host.reduceAdd (Host.exp (subf L (broadcastInDim S16384x64 ![0, 1] bcast_S16384x1_S16384x64_0_1 (broadcastInDim S16384x1 ![0] bcast_S16384_S16384x1_0
          (maximumf (broadcastInDim S16384 ![] bcast_S_S16384 (constant S_ .f32 0xFF800000#32))
            (Host.reduce FloatOps.maximumf L (constant S_ .f32 0xFF800000#32) reducesTo_S16384x64_S16384_d1 h_S_))))))
        (constant S_ .f32 0x00000000#32) reducesTo_S16384x64_S16384_d1 h_S_))))

/-! ## The fold of a list of operations in two parts -/

theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- A value carried into a buffer's own type and back is the value. -/
theorem ofBuf_toBuf {T : BufTy} (x : TRef sig T) (v : T.Contents (Elt F)) : x.ofBuf (x.toBuf v) = v := by
  obtain ⟨ref, ty_eq, hd, hs⟩ := x
  subst ty_eq
  rfl

/-! ## The three stretches, each from arbitrary contents -/

variable (V : Valuation τ sig (Elt F))

/-- The first stretch leaves the first layer in `main_v28`. -/
theorem stretchA_v28 : after (opsA (F := F)) V (Proc.devRef .tc main_v28)
    = hidden (V (Proc.devRef .tc main_arg0)) (V (Proc.devRef .tc main_arg1)) (V (Proc.devRef .tc main_arg2))
        (V (Proc.devRef .tc main_arg5)) (V (Proc.devRef .tc main_arg6)) (V (Proc.devRef .tc main_arg7)) := by
  after_results_simp <;> rfl

/-- The first stretch writes none of the arguments the later stretches read. -/
theorem stretchA_arg3 : after (opsA (F := F)) V (Proc.devRef .tc main_arg3) = V (Proc.devRef .tc main_arg3) := by after_results_simp <;> rfl
theorem stretchA_arg4 : after (opsA (F := F)) V (Proc.devRef .tc main_arg4) = V (Proc.devRef .tc main_arg4) := by after_results_simp <;> rfl
theorem stretchA_arg8 : after (opsA (F := F)) V (Proc.devRef .tc main_arg8) = V (Proc.devRef .tc main_arg8) := by after_results_simp <;> rfl
theorem stretchA_arg9 : after (opsA (F := F)) V (Proc.devRef .tc main_arg9) = V (Proc.devRef .tc main_arg9) := by after_results_simp <;> rfl
theorem stretchA_arg10 : after (opsA (F := F)) V (Proc.devRef .tc main_arg10) = V (Proc.devRef .tc main_arg10) := by after_results_simp <;> rfl

/-- The second stretch leaves the logits in `main_v56`, a function of `main_v28` and five arguments as it finds them. -/
theorem stretchB_v56 : after (opsB (F := F)) V (Proc.devRef .tc main_v56)
    = logits (V (Proc.devRef .tc main_v28)) (V (Proc.devRef .tc main_arg3)) (V (Proc.devRef .tc main_arg4))
        (V (Proc.devRef .tc main_arg8)) (V (Proc.devRef .tc main_arg9)) (V (Proc.devRef .tc main_arg10)) := by
  after_results_simp <;> rfl

/-- The third stretch leaves the log-softmax of `main_v56` in `main_v57`. -/
theorem stretchC_v57 : after (opsC (F := F)) V (Proc.devRef .tc main_v57) = logSoftmaxHost (V (Proc.devRef .tc main_v56)) := by
  after_results_simp
  simp only [ofBuf_toBuf]
  rfl

/-! ## The whole fold -/

/-- The reference's result: the log-softmax of the second layer's logits of the first layer's hidden rows. -/
def refOut (x : FVec F S262144x128 .f32) (src1 dst1 : (⟨S1048576, .i32⟩ : BufTy).Contents (Elt F)) (src2 dst2 : (⟨S262144, .i32⟩ : BufTy).Contents (Elt F))
    (w1l w1r : FVec F S256x128 .f32) (b1 : FVec F S256 .f32) (w2l w2r : FVec F S64x256 .f32) (b2 : FVec F S64 .f32) : FVec F S16384x64 .f32 :=
  logSoftmaxHost (logits (hidden x src1 dst1 w1l w1r b1) src2 dst2 w2l w2r b2)

/-- The fold of @main's 86 operations, at the result buffer, is `refOut` of the contents it starts from. -/
theorem after_ops_v57 : after (ops (F := F)) V (Proc.devRef .tc main_v57)
    = refOut (V (Proc.devRef .tc main_arg0)) (V (Proc.devRef .tc main_arg1)) (V (Proc.devRef .tc main_arg2))
        (V (Proc.devRef .tc main_arg3)) (V (Proc.devRef .tc main_arg4)) (V (Proc.devRef .tc main_arg5))
        (V (Proc.devRef .tc main_arg6)) (V (Proc.devRef .tc main_arg7)) (V (Proc.devRef .tc main_arg8))
        (V (Proc.devRef .tc main_arg9)) (V (Proc.devRef .tc main_arg10)) := by
  rw [ops_stretches, after_append, after_append, stretchC_v57, stretchB_v56, stretchA_v28, stretchA_arg3, stretchA_arg4,
    stretchA_arg8, stretchA_arg9, stretchA_arg10]
  rfl

/-- The reference's run with its result named: every weakly fair execution terminates with the result buffer at
    `refOut` of the launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v57)
        = refOut (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7)) (m ((c.tc : Thread nD τ).loc main_arg8))
            (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c).1.trans (after_ops_v57 (launchContents m c)), (h c).2⟩)
    (Cert.ReferenceIdeal.ValueP.run (F := F) m ρ)

end Cert.ReferenceIdeal.Hand

end
-- ==== Proof.Bridge.lean ====
/-
  The idealized kernel's result and the reference's result are one function of the eleven arguments.

  Both programs aggregate with the same host operations, so the aggregated arrays are equal term by term
  (`aggregate₁_eq`, `aggregate₂_eq`). What differs is the dense part of each layer. The reference multiplies the
  aggregated rows by `W_l`ᵀ, adds the bias, and adds the targets' own rows times `W_r`ᵀ. The kernel sets the
  aggregated row and the own row side by side, stacks `W_l`ᵀ on `W_r`ᵀ, and multiplies once: the sum over the 2K
  joined positions is the sum over the first K plus the sum over the last K, and `(s₁ + s₂) + b = (s₁ + b) + s₂` — laws
  of a commutative monoid, valid at every extended real, so the inputs' finiteness is never used. Row by row both
  first layers are `max (sage …) 0` (`hidden_eq`) and both second layers are the log-softmax, started from −∞, of
  `sage …` of the same hidden rows (`out_eq`).
-/
import proofs.«149258_j36344013259382_1_alg».proof.Proof.KernelValue
import proofs.«149258_j36344013259382_1_alg».proof.Proof.RefStages
import proofs.«149258_j36344013259382_1_alg».proof.Proof.LibSageRows

noncomputable section

namespace Cert.Bridge

open Idealize.ShloMosaic Idealize.ShloMosaic.ValueIdx
open Cert.RowLayers Cert.ChebRows Cert.Layers Cert.SageRows

/-- The dimension numbers of `Cert.ReferenceIdeal.dot_S65536x128_S128x256_S65536x256_1_0_0_1_n_n` contract the left operand's columns against the right operand's rows. -/
theorem rtcR₁ : RowsTimesCols (a := 65536) (K := 128) (b := 256) Cert.ReferenceIdeal.dot_S65536x128_S128x256_S65536x256_1_0_0_1_n_n where
  rank := rfl
  size := rfl
  lhs0 := fun j q => by
    unfold DotDims.lhsIdx
    rw [dif_neg (show ¬(0 : Fin Cert.ReferenceIdeal.S65536x128.rank) ∈ Cert.ReferenceIdeal.dot_S65536x128_S128x256_S65536x256_1_0_0_1_n_n.lhsBatch by decide), dif_pos (show (0 : Fin Cert.ReferenceIdeal.S65536x128.rank) ∈ Cert.ReferenceIdeal.dot_S65536x128_S128x256_S65536x256_1_0_0_1_n_n.lhsNonContracting by decide)]
    rfl
  lhs1 := fun j q => Cert.ReferenceIdeal.dot_S65536x128_S128x256_S65536x256_1_0_0_1_n_n.lhsIdx_val_of_single rfl j q
  rhs0 := fun j q => Cert.ReferenceIdeal.dot_S65536x128_S128x256_S65536x256_1_0_0_1_n_n.rhsIdx_val_of_single rfl j q
  rhs1 := fun j q => by
    unfold DotDims.rhsIdx
    rw [dif_neg (show ¬(1 : Fin Cert.ReferenceIdeal.S128x256.rank) ∈ Cert.ReferenceIdeal.dot_S65536x128_S128x256_S65536x256_1_0_0_1_n_n.rhsBatch by decide), dif_pos (show (1 : Fin Cert.ReferenceIdeal.S128x256.rank) ∈ Cert.ReferenceIdeal.dot_S65536x128_S128x256_S65536x256_1_0_0_1_n_n.rhsNonContracting by decide)]
    rfl

/-- The dimension numbers of `Cert.ReferenceIdeal.dot_S16384x256_S256x64_S16384x64_1_0_0_1_n_n` contract the left operand's columns against the right operand's rows. -/
theorem rtcR₂ : RowsTimesCols (a := 16384) (K := 256) (b := 64) Cert.ReferenceIdeal.dot_S16384x256_S256x64_S16384x64_1_0_0_1_n_n where
  rank := rfl
  size := rfl
  lhs0 := fun j q => by
    unfold DotDims.lhsIdx
    rw [dif_neg (show ¬(0 : Fin Cert.ReferenceIdeal.S16384x256.rank) ∈ Cert.ReferenceIdeal.dot_S16384x256_S256x64_S16384x64_1_0_0_1_n_n.lhsBatch by decide), dif_pos (show (0 : Fin Cert.ReferenceIdeal.S16384x256.rank) ∈ Cert.ReferenceIdeal.dot_S16384x256_S256x64_S16384x64_1_0_0_1_n_n.lhsNonContracting by decide)]
    rfl
  lhs1 := fun j q => Cert.ReferenceIdeal.dot_S16384x256_S256x64_S16384x64_1_0_0_1_n_n.lhsIdx_val_of_single rfl j q
  rhs0 := fun j q => Cert.ReferenceIdeal.dot_S16384x256_S256x64_S16384x64_1_0_0_1_n_n.rhsIdx_val_of_single rfl j q
  rhs1 := fun j q => by
    unfold DotDims.rhsIdx
    rw [dif_neg (show ¬(1 : Fin Cert.ReferenceIdeal.S256x64.rank) ∈ Cert.ReferenceIdeal.dot_S16384x256_S256x64_S16384x64_1_0_0_1_n_n.rhsBatch by decide), dif_pos (show (1 : Fin Cert.ReferenceIdeal.S256x64.rank) ∈ Cert.ReferenceIdeal.dot_S16384x256_S256x64_S16384x64_1_0_0_1_n_n.rhsNonContracting by decide)]
    rfl

/-- The maximum with a rank-0 constant broadcast over an array, read at an entry: the rectifier at that constant of the
    entry's row. -/
theorem maximumf_const_apply {a b : ℕ} {φ : FTy} {s : Shape} (x : FVec Ideal ⟨2, ![a, b]⟩ φ) (w : BitVec φ.bits)
    (dims : Fin s.rank → Fin 2) (h : s.BroadcastsInDim ⟨2, ![a, b]⟩ dims) (p : Fin a) (k : Fin b) :
    maximumf x (broadcastInDim ⟨2, ![a, b]⟩ dims h (constant (F := Ideal) s φ w)) (ix2 p k)
      = relu (Ideal.ofBits φ w) (rowOf x p) k := rfl

/-- The splat scalar 0 is the extended real the zero word denotes. -/
theorem z0_eq : Cert.KernelIdeal.Hand.z0 = Ideal.ofBits .f32 0x00000000#32 := rfl

/-! ## The shared aggregations -/

/-- The two programs' first aggregations are the same operations of the same operands. -/
theorem aggregate₁_eq (x : FVec Ideal Cert.ReferenceIdeal.S262144x128 .f32) (src dst : (⟨Cert.ReferenceIdeal.S1048576, .i32⟩ : BufTy).Contents (Elt Ideal)) :
    Cert.KernelIdeal.Hand.kAggregate₁ x src dst = Cert.ReferenceIdeal.Hand.aggregate₁ x src dst := rfl

/-- The two programs' second aggregations are the same operations of the same operands. -/
theorem aggregate₂_eq (h : FVec Ideal Cert.ReferenceIdeal.S65536x256 .f32) (src dst : (⟨Cert.ReferenceIdeal.S262144, .i32⟩ : BufTy).Contents (Elt Ideal)) :
    Cert.KernelIdeal.Hand.kAggregate₂ h src dst = Cert.ReferenceIdeal.Hand.aggregate₂ h src dst := rfl

/-! ## The first layer -/

theorem hidden_eq (x : FVec Ideal Cert.ReferenceIdeal.S262144x128 .f32) (src dst : (⟨Cert.ReferenceIdeal.S1048576, .i32⟩ : BufTy).Contents (Elt Ideal))
    (wl wr : FVec Ideal Cert.ReferenceIdeal.S256x128 .f32) (b : FVec Ideal Cert.ReferenceIdeal.S256 .f32) :
    Cert.KernelIdeal.Hand.kHidden x src dst wl wr b = Cert.ReferenceIdeal.Hand.hidden x src dst wl wr b := by
  funext i
  obtain ⟨r, q, rfl⟩ : ∃ (r : Fin 65536) (q : Fin 256), i = ix2 r q := ⟨i 0, i 1, eq_ix2 i⟩
  have hK : Cert.KernelIdeal.Hand.kHidden x src dst wl wr b (ix2 r q)
      = relu Cert.KernelIdeal.Hand.z0 (sage (rowOf (a := 65536) (b := 128) (Cert.KernelIdeal.Hand.kAggregate₁ x src dst) r)
          (rowOf (a := 65536) (b := 128) (extractStridedSlice Cert.KernelIdeal.S65536x128 ![0, 0] x Cert.KernelIdeal.Gen.slices_S262144x128_S65536x128_0_0) r)
          (transpose Cert.KernelIdeal.S128x256 [1, 0] wl Cert.KernelIdeal.Gen.transposes_S256x128_S128x256_1_0)
          (transpose Cert.KernelIdeal.S128x256 [1, 0] wr Cert.KernelIdeal.Gen.transposes_S256x128_S128x256_1_0) (vec b)) q := by
    unfold Cert.KernelIdeal.Hand.kHidden Cert.KernelIdeal.Hand.comb₁ Cert.KernelIdeal.Hand.stack₁
    show hiddenRow Cert.KernelIdeal.Hand.z0 _ (rowOf (a := 1) (b := 256) (shapeCast Cert.KernelIdeal.S1x256 b Cert.KernelIdeal.Gen.shapeCasts_S256_S1x256) 0) _ q = _
    unfold hiddenRow
    rw [rowOf_shapeCast_lead]
    exact congrArg (fun f => relu Cert.KernelIdeal.Hand.z0 f q)
      (dense_concat (a := 65536) (A := 128) (B := 128) (C := 256) (J := 256) _ _ _ _ _ _ rfl (vec b) r)
  have hR : Cert.ReferenceIdeal.Hand.hidden x src dst wl wr b (ix2 r q)
      = relu (Ideal.ofBits .f32 0x00000000#32) (sage (rowOf (a := 65536) (b := 128) (Cert.ReferenceIdeal.Hand.aggregate₁ x src dst) r)
          (rowOf (a := 65536) (b := 128) (extractStridedSlice Cert.ReferenceIdeal.S65536x128 ![0, 0] x Cert.ReferenceIdeal.Gen.slices_S262144x128_S65536x128_0_0) r)
          (transpose Cert.ReferenceIdeal.S128x256 [1, 0] wl Cert.ReferenceIdeal.Gen.transposes_S256x128_S128x256_1_0)
          (transpose Cert.ReferenceIdeal.S128x256 [1, 0] wr Cert.ReferenceIdeal.Gen.transposes_S256x128_S128x256_1_0) (vec b)) q := by
    unfold Cert.ReferenceIdeal.Hand.hidden
    refine (maximumf_const_apply (a := 65536) (b := 256) (φ := .f32) (s := Cert.ReferenceIdeal.S_) (Cert.ReferenceIdeal.Hand.preHidden x src dst wl wr b) 0x00000000#32
      ![] Cert.ReferenceIdeal.Gen.bcast_S_S65536x256 r q).trans ?_
    unfold Cert.ReferenceIdeal.Hand.preHidden
    exact congrArg (fun f => relu (Ideal.ofBits .f32 0x00000000#32) f q)
      (rowOf_sage_host (a := 65536) (A := 128) (B := 128) (J := 256) rtcR₁ rtcR₁ none none _ _ _ _ b _ _ r)
  rw [hK, hR, aggregate₁_eq, z0_eq]

/-! ## The second layer and the log-softmax -/

theorem out_eq (x : FVec Ideal Cert.ReferenceIdeal.S262144x128 .f32) (src1 dst1 : (⟨Cert.ReferenceIdeal.S1048576, .i32⟩ : BufTy).Contents (Elt Ideal))
    (src2 dst2 : (⟨Cert.ReferenceIdeal.S262144, .i32⟩ : BufTy).Contents (Elt Ideal))
    (w1l w1r : FVec Ideal Cert.ReferenceIdeal.S256x128 .f32) (b1 : FVec Ideal Cert.ReferenceIdeal.S256 .f32)
    (w2l w2r : FVec Ideal Cert.ReferenceIdeal.S64x256 .f32) (b2 : FVec Ideal Cert.ReferenceIdeal.S64 .f32) :
    Cert.KernelIdeal.Hand.kernelOut x src1 dst1 src2 dst2 w1l w1r b1 w2l w2r b2 = Cert.ReferenceIdeal.Hand.refOut x src1 dst1 src2 dst2 w1l w1r b1 w2l w2r b2 := by
  unfold Cert.KernelIdeal.Hand.kernelOut Cert.ReferenceIdeal.Hand.refOut
  rw [hidden_eq]
  generalize Cert.ReferenceIdeal.Hand.hidden x src1 dst1 w1l w1r b1 = H
  funext i
  obtain ⟨r, q, rfl⟩ : ∃ (r : Fin 16384) (q : Fin 64), i = ix2 r q := ⟨i 0, i 1, eq_ix2 i⟩
  have hK : Cert.KernelIdeal.Hand.outArr (Cert.KernelIdeal.Hand.comb₂ H src2 dst2) (Cert.KernelIdeal.Hand.stack₂ w2l w2r) (shapeCast Cert.KernelIdeal.S1x64 b2 Cert.KernelIdeal.Gen.shapeCasts_S64_S1x64) (ix2 r q)
      = logSoftmax Cert.KernelIdeal.Hand.zM (sage (rowOf (a := 16384) (b := 256) (Cert.KernelIdeal.Hand.kAggregate₂ H src2 dst2) r)
          (rowOf (a := 16384) (b := 256) (extractStridedSlice Cert.KernelIdeal.S16384x256 ![0, 0] H Cert.KernelIdeal.Gen.slices_S65536x256_S16384x256_0_0) r)
          (transpose Cert.KernelIdeal.S256x64 [1, 0] w2l Cert.KernelIdeal.Gen.transposes_S64x256_S256x64_1_0)
          (transpose Cert.KernelIdeal.S256x64 [1, 0] w2r Cert.KernelIdeal.Gen.transposes_S64x256_S256x64_1_0) (vec b2)) q := by
    unfold Cert.KernelIdeal.Hand.comb₂ Cert.KernelIdeal.Hand.stack₂
    show outRow Cert.KernelIdeal.Hand.zM _ (rowOf (a := 1) (b := 64) (shapeCast Cert.KernelIdeal.S1x64 b2 Cert.KernelIdeal.Gen.shapeCasts_S64_S1x64) 0) _ q = _
    unfold outRow
    rw [rowOf_shapeCast_lead]
    exact congrArg (fun f => logSoftmax Cert.KernelIdeal.Hand.zM f q)
      (dense_concat (a := 16384) (A := 256) (B := 256) (C := 512) (J := 64) _ _ _ _ _ _ rfl (vec b2) r)
  have hR : Cert.ReferenceIdeal.Hand.logSoftmaxHost (Cert.ReferenceIdeal.Hand.logits H src2 dst2 w2l w2r b2) (ix2 r q)
      = logSoftmax (Ideal.ofBits .f32 0xFF800000#32) (sage (rowOf (a := 16384) (b := 256) (Cert.ReferenceIdeal.Hand.aggregate₂ H src2 dst2) r)
          (rowOf (a := 16384) (b := 256) (extractStridedSlice Cert.ReferenceIdeal.S16384x256 ![0, 0] H Cert.ReferenceIdeal.Gen.slices_S65536x256_S16384x256_0_0) r)
          (transpose Cert.ReferenceIdeal.S256x64 [1, 0] w2l Cert.ReferenceIdeal.Gen.transposes_S64x256_S256x64_1_0)
          (transpose Cert.ReferenceIdeal.S256x64 [1, 0] w2r Cert.ReferenceIdeal.Gen.transposes_S64x256_S256x64_1_0) (vec b2)) q := by
    unfold Cert.ReferenceIdeal.Hand.logSoftmaxHost
    refine (logSoftmax_host_apply (a := 16384) (n := 64) (Cert.ReferenceIdeal.Hand.logits H src2 dst2 w2l w2r b2) 0xFF800000#32
      Cert.ReferenceIdeal.Gen.reducesTo_S16384x64_S16384_d1 (by decide) Cert.ReferenceIdeal.Gen.h_S_ Cert.ReferenceIdeal.Gen.bcast_S_S16384 Cert.ReferenceIdeal.Gen.bcast_S16384_S16384x1_0
      Cert.ReferenceIdeal.Gen.bcast_S16384x1_S16384x64_0_1 r q).trans ?_
    unfold Cert.ReferenceIdeal.Hand.logits
    exact congrArg (fun f => logSoftmax (Ideal.ofBits .f32 0xFF800000#32) f q)
      (rowOf_sage_host (a := 16384) (A := 256) (B := 256) (J := 64) rtcR₂ rtcR₂ none none _ _ _ _ b2 _ _ r)
  rw [hK, hR, aggregate₂_eq]

end Cert.Bridge

end
-- ==== Proof.lean ====
/-
  The certificate: a two-layer mean-aggregator graph network (GraphSAGE) whose dense parts run in two device regions,
  against the plain host reference, equal over the extended reals.

  Each layer aggregates the source rows at the targets (gather, scatter-add, division by the clamped in-degree) with
  host operations that both programs share. The reference then computes `aggr · W_l`ᵀ `+ b + x_dst · W_r`ᵀ; the
  kernel concatenates `[aggr | x_dst]` and `[W_l`ᵀ` ; W_r`ᵀ`]`, rounds both to bf16 (the identity at the ideal
  instance), and multiplies once per block of 4096 rows, adding the bias; the first region applies the rectifier, the
  second the row-wise log-softmax. The two dense forms agree by splitting the sum over the joined index set and by
  commutativity and associativity of addition, which hold at every extended real: the precondition (finite inputs)
  is not used by the value claim. The three frames are the generated frame runs (the reference's frame is its run with
  the result dropped); the ideal pass rewrote nothing, so `preserves` is `True`.
-/
import proofs.«149258_j36344013259382_1_alg».proof.Defs
import proofs.«149258_j36344013259382_1_alg».proof.Proof.Gen.Kernel
import proofs.«149258_j36344013259382_1_alg».proof.Proof.Gen.Kernel.Skeleton
import proofs.«149258_j36344013259382_1_alg».proof.Proof.Gen.Kernel.Launch
import proofs.«149258_j36344013259382_1_alg».proof.Proof.Gen.Kernel.Points
import proofs.«149258_j36344013259382_1_alg».proof.Proof.Gen.Kernel.Frame
import proofs.«149258_j36344013259382_1_alg».proof.Proof.Gen.KernelIdeal
import proofs.«149258_j36344013259382_1_alg».proof.Proof.Gen.KernelIdeal.Skeleton
import proofs.«149258_j36344013259382_1_alg».proof.Proof.Gen.KernelIdeal.Launch
import proofs.«149258_j36344013259382_1_alg».proof.Proof.Gen.KernelIdeal.Points
import proofs.«149258_j36344013259382_1_alg».proof.Proof.Gen.KernelIdeal.Frame
import proofs.«149258_j36344013259382_1_alg».proof.Proof.Gen.ReferenceIdeal
import proofs.«149258_j36344013259382_1_alg».proof.Proof.Gen.Pre_finite_inputs
import proofs.«149258_j36344013259382_1_alg».proof.Proof.KernelValue
import proofs.«149258_j36344013259382_1_alg».proof.Proof.RefStages
import proofs.«149258_j36344013259382_1_alg».proof.Proof.Bridge
import Idealize.ShloMosaic.Adequacy
import Idealize.ShloMosaic.Init

noncomputable section

namespace Cert.Proof

open Idealize.ShloMosaic Idealize.SL.Sem

/-- The word-level kernel runs and leaves its arguments as launched: the generated frame. -/
theorem frame_kernel : Cert.frame_Kernel := fun m ρ _ => Cert.Kernel.Gen.frame m ρ

/-- The idealized kernel runs and leaves its arguments as launched: the generated frame. -/
theorem frame_kernelIdeal : Cert.frame_KernelIdeal := fun m ρ _ => Cert.KernelIdeal.Gen.frame m ρ

/-- The idealized reference runs and leaves its arguments as launched: its run with the result dropped. -/
theorem frame_referenceIdeal : Cert.frame_ReferenceIdeal := fun m ρ _ =>
  (θ_run Cert.ReferenceIdeal.defs _ _).mono (fun _ h c => (h c).2) (Cert.ReferenceIdeal.Hand.run m ρ)

/-- From memories that agree on the eleven arguments both idealized programs end with the result buffer at one and
    the same function of those arguments. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Hand.run m' ρ')
  obtain ⟨e0, e1, e2, e3, e4, e5, e6, e7, e8, e9, e10⟩ := hagree c
  rw [e0, e1, e2, e3, e4, e5, e6, e7, e8, e9, e10]
  exact (Cert.Bridge.out_eq _ _ _ _ _ _ _ _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
